-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel

variable [Facts]

def fn {F : FTy → Type} [FloatOps F] (main_arg0 : FVec F S8x1024x512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  main_v3
-- ==== Kernel.lean ====
abbrev S8x1024x512 : Shape := ⟨3, ![8, 1024, 512]⟩
abbrev S1x1024x512 : Shape := ⟨3, ![1, 1024, 512]⟩
abbrev S1024x512 : Shape := ⟨2, ![1024, 512]⟩
abbrev S1024x64 : Shape := ⟨2, ![1024, 64]⟩
abbrev S1024x8 : Shape := ⟨2, ![1024, 8]⟩
abbrev S1024x1 : Shape := ⟨2, ![1024, 1]⟩
abbrev S1024x2 : Shape := ⟨2, ![1024, 2]⟩
abbrev S1024x4 : Shape := ⟨2, ![1024, 4]⟩
abbrev S1024x16 : Shape := ⟨2, ![1024, 16]⟩
abbrev S1024x32 : Shape := ⟨2, ![1024, 32]⟩
abbrev S1024x128 : Shape := ⟨2, ![1024, 128]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  slices_S1024x512_o0_0_S1024x64 : S1024x512.Slices ![0, 0] S1024x64
  slices_S1024x64_o0_0_S1024x8 : S1024x64.Slices ![0, 0] S1024x8
  slices_S1024x8_o0_0_S1024x1 : S1024x8.Slices ![0, 0] S1024x1
  concatenates_S1024x1_S1024x1_S1024x2_d1 : Shape.Concatenates [S1024x1, S1024x1] S1024x2 1
  slices_S1024x8_o0_1_S1024x1 : S1024x8.Slices ![0, 1] S1024x1
  broadcasts_S1024x1_S1024x2 : S1024x1.Broadcasts S1024x2
  concatenates_S1024x2_S1024x2_S1024x4_d1 : Shape.Concatenates [S1024x2, S1024x2] S1024x4 1
  slices_S1024x8_o0_2_S1024x1 : S1024x8.Slices ![0, 2] S1024x1
  broadcasts_S1024x1_S1024x4 : S1024x1.Broadcasts S1024x4
  concatenates_S1024x4_S1024x4_S1024x8_d1 : Shape.Concatenates [S1024x4, S1024x4] S1024x8 1
  slices_S1024x8_o0_3_S1024x1 : S1024x8.Slices ![0, 3] S1024x1
  broadcasts_S1024x1_S1024x8 : S1024x1.Broadcasts S1024x8
  concatenates_S1024x8_S1024x8_S1024x16_d1 : Shape.Concatenates [S1024x8, S1024x8] S1024x16 1
  slices_S1024x8_o0_4_S1024x1 : S1024x8.Slices ![0, 4] S1024x1
  broadcasts_S1024x1_S1024x16 : S1024x1.Broadcasts S1024x16
  concatenates_S1024x16_S1024x16_S1024x32_d1 : Shape.Concatenates [S1024x16, S1024x16] S1024x32 1
  slices_S1024x8_o0_5_S1024x1 : S1024x8.Slices ![0, 5] S1024x1
  broadcasts_S1024x1_S1024x32 : S1024x1.Broadcasts S1024x32
  concatenates_S1024x32_S1024x32_S1024x64_d1 : Shape.Concatenates [S1024x32, S1024x32] S1024x64 1
  slices_S1024x8_o0_6_S1024x1 : S1024x8.Slices ![0, 6] S1024x1
  broadcasts_S1024x1_S1024x64 : S1024x1.Broadcasts S1024x64
  concatenates_S1024x64_S1024x64_S1024x128_d1 : Shape.Concatenates [S1024x64, S1024x64] S1024x128 1
  slices_S1024x8_o0_7_S1024x1 : S1024x8.Slices ![0, 7] S1024x1
  broadcasts_S1024x1_S1024x128 : S1024x1.Broadcasts S1024x128
  concatenates_S1024x128_S1024x128_S1024x256_d1 : Shape.Concatenates [S1024x128, S1024x128] S1024x256 1
  bitsLt_bf16_f32 : FTy.bits .bf16 < FTy.bits .f32
  transposes_S1024x256_p1_0_S256x1024 : S1024x256.Transposes [1, 0] S256x1024
  reduces_S1024x1024_S1024 : S1024x1024.Reduces [1] S1024
  shapeCasts_S1024_S1024x1 : S1024.ShapeCasts S1024x1
  broadcasts_S1024x1_S1024x1024 : S1024x1.Broadcasts S1024x1024
  slices_S1024x512_o0_64_S1024x64 : S1024x512.Slices ![0, 64] S1024x64
  slices_S1024x512_o0_128_S1024x64 : S1024x512.Slices ![0, 128] S1024x64
  slices_S1024x512_o0_192_S1024x64 : S1024x512.Slices ![0, 192] S1024x64
  slices_S1024x512_o0_256_S1024x64 : S1024x512.Slices ![0, 256] S1024x64
  slices_S1024x512_o0_320_S1024x64 : S1024x512.Slices ![0, 320] S1024x64
  slices_S1024x512_o0_384_S1024x64 : S1024x512.Slices ![0, 384] S1024x64
  slices_S1024x512_o0_448_S1024x64 : S1024x512.Slices ![0, 448] S1024x64
  concatenates_S1024x64_S1024x64_S1024x64_S1024x64_S1024x64_S1024x64_S1024x64_S1024x64_S1024x512_d1 : Shape.Concatenates [S1024x64, S1024x64, S1024x64, S1024x64, S1024x64, S1024x64, S1024x64, S1024x64] S1024x512 1
  shapeCasts_S1024x512_S1x1024x512 : S1024x512.ShapeCasts S1x1024x512
  dot_S1024x256_S256x1024_S1024x1024_1_0_0_1_n_n_wf : DotDims.WF S1024x256 S256x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x512.size a
  hwx0_1 : ∀ i : grid0.Coords, EltTy.bits .f32 = 32 ∨ (Rect.block (s := S8x1024x512) S1x1024x512.size (cc0_transform_1 i) (hinb0_1 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x1024x512 : Shape := ⟨3, ![8, 1024, 512]⟩
abbrev S8x1024x8x64 : Shape := ⟨4, ![8, 1024, 8, 64]⟩
abbrev S8x8x1024x64 : Shape := ⟨4, ![8, 8, 1024, 64]⟩
abbrev S8x8x1024x8 : Shape := ⟨4, ![8, 8, 1024, 8]⟩
abbrev S_ : Shape := ⟨0, ![]⟩
abbrev S8x8x1024x1024 : Shape := ⟨4, ![8, 8, 1024, 1024]⟩
abbrev S8x8x1024x1 : Shape := ⟨4, ![8, 8, 1024, 1]⟩
abbrev S8x8x1024 : Shape := ⟨3, ![8, 8, 1024]⟩
abbrev S8x8x1x1024 : Shape := ⟨4, ![8, 8, 1, 1024]⟩

abbrev nBuf : Space → Nat
  | .hbm => 136
  | .vmem => 0
  | .smem => 0
  | _ => 0

abbrev hbmTy0_0 (i : Nat) : BufTy := match i % 128 with
  | 0 => ⟨S8x1024x512, .f32⟩
  | 1 => ⟨S8x1024x8x64, .f32⟩
  | 2 => ⟨S8x8x1024x64, .f32⟩
  | 3 => ⟨S8x8x1024x8, .f32⟩
  | 4 => ⟨S_, .f32⟩
  | 5 => ⟨S8x8x1024x1024, .f32⟩
  | 6 => ⟨S8x8x1024x1, .f32⟩
  | 7 => ⟨S8x8x1024, .f32⟩
  | 8 => ⟨S8x8x1024x1, .f32⟩
  | 9 => ⟨S8x8x1024x1, .f32⟩
  | 10 => ⟨S8x8x1024, .f32⟩
  | 11 => ⟨S8x8x1x1024, .f32⟩
  | 12 => ⟨S8x8x1024x1024, .f32⟩
  | 13 => ⟨S8x8x1024x1024, .f32⟩
  | 14 => ⟨S8x8x1024x1024, .f32⟩
  | 15 => ⟨S_, .f32⟩
  | 16 => ⟨S8x8x1024x1024, .f32⟩
  | 17 => ⟨S8x8x1024x1024, .f32⟩
  | 18 => ⟨S8x8x1024x1024, .f32⟩
  | 19 => ⟨S8x8x1024x1024, .f32⟩
  | 20 => ⟨S8x8x1024x1, .f32⟩
  | 21 => ⟨S8x8x1024, .f32⟩
  | 22 => ⟨S8x8x1024x1, .f32⟩
  | 23 => ⟨S8x8x1024x1, .f32⟩
  | 24 => ⟨S8x8x1024, .f32⟩
  | 25 => ⟨S8x8x1x1024, .f32⟩
  | 26 => ⟨S8x8x1024x1024, .f32⟩
  | 27 => ⟨S8x8x1024x1024, .f32⟩
  | 28 => ⟨S8x8x1024x1024, .f32⟩
  | 29 => ⟨S_, .f32⟩
  | 30 => ⟨S8x8x1024x1024, .f32⟩
  | 31 => ⟨S8x8x1024x1024, .f32⟩
  | 32 => ⟨S8x8x1024x1024, .f32⟩
  | 33 => ⟨S8x8x1024x1024, .f32⟩
  | 34 => ⟨S8x8x1024x1, .f32⟩
  | 35 => ⟨S8x8x1024, .f32⟩
  | 36 => ⟨S8x8x1024x1, .f32⟩
  | 37 => ⟨S8x8x1024x1, .f32⟩
  | 38 => ⟨S8x8x1024, .f32⟩
  | 39 => ⟨S8x8x1x1024, .f32⟩
  | 40 => ⟨S8x8x1024x1024, .f32⟩
  | 41 => ⟨S8x8x1024x1024, .f32⟩
  | 42 => ⟨S8x8x1024x1024, .f32⟩
  | 43 => ⟨S_, .f32⟩
  | 44 => ⟨S8x8x1024x1024, .f32⟩
  | 45 => ⟨S8x8x1024x1024, .f32⟩
  | 46 => ⟨S8x8x1024x1024, .f32⟩
  | 47 => ⟨S8x8x1024x1024, .f32⟩
  | 48 => ⟨S8x8x1024x1, .f32⟩
  | 49 => ⟨S8x8x1024, .f32⟩
  | 50 => ⟨S8x8x1024x1, .f32⟩
  | 51 => ⟨S8x8x1024x1, .f32⟩
  | 52 => ⟨S8x8x1024, .f32⟩
  | 53 => ⟨S8x8x1x1024, .f32⟩
  | 54 => ⟨S8x8x1024x1024, .f32⟩
  | 55 => ⟨S8x8x1024x1024, .f32⟩
  | 56 => ⟨S8x8x1024x1024, .f32⟩
  | 57 => ⟨S_, .f32⟩
  | 58 => ⟨S8x8x1024x1024, .f32⟩
  | 59 => ⟨S8x8x1024x1024, .f32⟩
  | 60 => ⟨S8x8x1024x1024, .f32⟩
  | 61 => ⟨S8x8x1024x1024, .f32⟩
  | 62 => ⟨S8x8x1024x1, .f32⟩
  | 63 => ⟨S8x8x1024, .f32⟩
  | 64 => ⟨S8x8x1024x1, .f32⟩
  | 65 => ⟨S8x8x1024x1, .f32⟩
  | 66 => ⟨S8x8x1024, .f32⟩
  | 67 => ⟨S8x8x1x1024, .f32⟩
  | 68 => ⟨S8x8x1024x1024, .f32⟩
  | 69 => ⟨S8x8x1024x1024, .f32⟩
  | 70 => ⟨S8x8x1024x1024, .f32⟩
  | 71 => ⟨S_, .f32⟩
  | 72 => ⟨S8x8x1024x1024, .f32⟩
  | 73 => ⟨S8x8x1024x1024, .f32⟩
  | 74 => ⟨S8x8x1024x1024, .f32⟩
  | 75 => ⟨S8x8x1024x1024, .f32⟩
  | 76 => ⟨S8x8x1024x1, .f32⟩
  | 77 => ⟨S8x8x1024, .f32⟩
  | 78 => ⟨S8x8x1024x1, .f32⟩
  | 79 => ⟨S8x8x1024x1, .f32⟩
  | 80 => ⟨S8x8x1024, .f32⟩
  | 81 => ⟨S8x8x1x1024, .f32⟩
  | 82 => ⟨S8x8x1024x1024, .f32⟩
  | 83 => ⟨S8x8x1024x1024, .f32⟩
  | 84 => ⟨S8x8x1024x1024, .f32⟩
  | 85 => ⟨S_, .f32⟩
  | 86 => ⟨S8x8x1024x1024, .f32⟩
  | 87 => ⟨S8x8x1024x1024, .f32⟩
  | 88 => ⟨S8x8x1024x1024, .f32⟩
  | 89 => ⟨S8x8x1024x1024, .f32⟩
  | 90 => ⟨S8x8x1024x1, .f32⟩
  | 91 => ⟨S8x8x1024, .f32⟩
  | 92 => ⟨S8x8x1024x1, .f32⟩
  | 93 => ⟨S8x8x1024x1, .f32⟩
  | 94 => ⟨S8x8x1024, .f32⟩
  | 95 => ⟨S8x8x1x1024, .f32⟩
  | 96 => ⟨S8x8x1024x1024, .f32⟩
  | 97 => ⟨S8x8x1024x1024, .f32⟩
  | 98 => ⟨S8x8x1024x1024, .f32⟩
  | 99 => ⟨S_, .f32⟩
  | 100 => ⟨S8x8x1024x1024, .f32⟩
  | 101 => ⟨S8x8x1024x1024, .f32⟩
  | 102 => ⟨S8x8x1024x1024, .f32⟩
  | 103 => ⟨S8x8x1024x1024, .f32⟩
  | 104 => ⟨S8x8x1024x1, .f32⟩
  | 105 => ⟨S8x8x1024, .f32⟩
  | 106 => ⟨S8x8x1024x1, .f32⟩
  | 107 => ⟨S8x8x1024x1, .f32⟩
  | 108 => ⟨S8x8x1024, .f32⟩
  | 109 => ⟨S8x8x1x1024, .f32⟩
  | 110 => ⟨S8x8x1024x1024, .f32⟩
  | 111 => ⟨S8x8x1024x1024, .f32⟩
  | 112 => ⟨S8x8x1024x1024, .f32⟩
  | 113 => ⟨S_, .f32⟩
  | 114 => ⟨S8x8x1024x1024, .f32⟩
  | 115 => ⟨S8x8x1024x1024, .f32⟩
  | 116 => ⟨S8x8x1024x1024, .f32⟩
  | 117 => ⟨S8x8x1024x1024, .f32⟩
  | 118 => ⟨S8x8x1024x1024, .f32⟩
  | 119 => ⟨S_, .f32⟩
  | 120 => ⟨S8x8x1024, .f32⟩
  | 121 => ⟨S_, .f32⟩
  | 122 => ⟨S8x8x1024, .f32⟩
  | 123 => ⟨S8x8x1024, .f32⟩
  | 124 => ⟨S8x8x1024x1, .f32⟩
  | 125 => ⟨S8x8x1024x1024, .f32⟩
  | 126 => ⟨S8x8x1024x1024, .f32⟩
  | 127 => ⟨S8x8x1024x1024, .f32⟩
  | _ => ⟨S8x1024x512, .f32⟩

abbrev hbmTy0_1 (i : Nat) : BufTy := match i % 128 with
  | 0 => ⟨S_, .f32⟩
  | 1 => ⟨S8x8x1024, .f32⟩
  | 2 => ⟨S8x8x1024x1, .f32⟩
  | 3 => ⟨S8x8x1024x1024, .f32⟩
  | 4 => ⟨S8x8x1024x1024, .f32⟩
  | 5 => ⟨S8x8x1024x64, .f32⟩
  | 6 => ⟨S8x1024x8x64, .f32⟩
  | 7 => ⟨S8x1024x512, .f32⟩
  | _ => ⟨S8x1024x512, .f32⟩

abbrev hbmTy (i : Nat) : BufTy := match i / 128 with
  | 0 => hbmTy0_0 i
  | 1 => hbmTy0_1 i
  | _ => ⟨S8x1024x512, .f32⟩

abbrev bufTy : (tb : Table) → Fin (tcTables nBuf tb) → BufTy
  | .hbm, ⟨i, _⟩ => hbmTy i
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_1 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_2 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_cst_3 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_cst_4 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_cst_5 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_cst_6 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_cst_7 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_cst_8 : Ref sig .tc := ⟨.hbm, 119, rfl⟩
abbrev main_v109 : Ref sig .tc := ⟨.hbm, 120, rfl⟩
abbrev main_cst_9 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_cst_10 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩

abbrev nD : Nat := 1
abbrev τ : Topo := Topo.v7x

variable {F : FTy → Type} [FloatOps F]

class Facts₀ : Prop where
  shapeCasts_S8x1024x512_S8x1024x8x64 : S8x1024x512.ShapeCasts S8x1024x8x64
  transposes_S8x1024x8x64_S8x8x1024x64_0_2_1_3 : S8x1024x8x64.Transposes [0, 2, 1, 3] S8x8x1024x64
  slices_S8x8x1024x64_S8x8x1024x8_0_0_0_0 : S8x8x1024x64.Slices ![0, 0, 0, 0] S8x8x1024x8
  bcast_S_S8x8x1024x1024 : S_.BroadcastsInDim S8x8x1024x1024 (![] : Fin 0 → Fin S8x8x1024x1024.rank)
  slices_S8x8x1024x8_S8x8x1024x1_0_0_0_0 : S8x8x1024x8.Slices ![0, 0, 0, 0] S8x8x1024x1
  shapeCasts_S8x8x1024x1_S8x8x1024 : S8x8x1024x1.ShapeCasts S8x8x1024
  bcast_S8x8x1024_S8x8x1024x1_0_1_2 : S8x8x1024.BroadcastsInDim S8x8x1024x1 (![0, 1, 2] : Fin 3 → Fin S8x8x1024x1.rank)
  bcast_S8x8x1024_S8x8x1x1024_0_1_3 : S8x8x1024.BroadcastsInDim S8x8x1x1024 (![0, 1, 3] : Fin 3 → Fin S8x8x1x1024.rank)
  bcast_S8x8x1024x1_S8x8x1024x1024_0_1_2_3 : S8x8x1024x1.BroadcastsInDim S8x8x1024x1024 (![0, 1, 2, 3] : Fin 4 → Fin S8x8x1024x1024.rank)
  bcast_S8x8x1x1024_S8x8x1024x1024_0_1_2_3 : S8x8x1x1024.BroadcastsInDim S8x8x1024x1024 (![0, 1, 2, 3] : Fin 4 → Fin S8x8x1024x1024.rank)
  slices_S8x8x1024x8_S8x8x1024x1_0_0_0_1 : S8x8x1024x8.Slices ![0, 0, 0, 1] S8x8x1024x1
  slices_S8x8x1024x8_S8x8x1024x1_0_0_0_2 : S8x8x1024x8.Slices ![0, 0, 0, 2] S8x8x1024x1
  slices_S8x8x1024x8_S8x8x1024x1_0_0_0_3 : S8x8x1024x8.Slices ![0, 0, 0, 3] S8x8x1024x1
  slices_S8x8x1024x8_S8x8x1024x1_0_0_0_4 : S8x8x1024x8.Slices ![0, 0, 0, 4] S8x8x1024x1
  slices_S8x8x1024x8_S8x8x1024x1_0_0_0_5 : S8x8x1024x8.Slices ![0, 0, 0, 5] S8x8x1024x1
  slices_S8x8x1024x8_S8x8x1024x1_0_0_0_6 : S8x8x1024x8.Slices ![0, 0, 0, 6] S8x8x1024x1
  slices_S8x8x1024x8_S8x8x1024x1_0_0_0_7 : S8x8x1024x8.Slices ![0, 0, 0, 7] S8x8x1024x1
  reducesTo_S8x8x1024x1024_S8x8x1024_d3 : S8x8x1024x1024.ReducesTo [3] S8x8x1024
  h_S_ : 0 < S_.numel
  bcast_S_S8x8x1024 : S_.BroadcastsInDim S8x8x1024 (![] : Fin 0 → Fin S8x8x1024.rank)
  transposes_S8x8x1024x64_S8x1024x8x64_0_2_1_3 : S8x8x1024x64.Transposes [0, 2, 1, 3] S8x1024x8x64
  shapeCasts_S8x1024x8x64_S8x1024x512 : S8x1024x8x64.ShapeCasts S8x1024x512
  dot_S8x8x1024x1024_S8x8x1024x64_S8x8x1024x64_3_2_2_3_01_01_wf : DotDims.WF S8x8x1024x1024 S8x8x1024x64 S8x8x1024x64 [3] [2] [2] [3] [0, 1] [0, 1]

variable [Facts₀]

def dot_S8x8x1024x1024_S8x8x1024x64_S8x8x1024x64_3_2_2_3_01_01 : DotDims S8x8x1024x1024 S8x8x1024x64 S8x8x1024x64 where
  lhsContracting := [3]
  rhsContracting := [2]
  lhsNonContracting := [2]
  rhsNonContracting := [3]
  lhsBatch := [0, 1]
  rhsBatch := [0, 1]
  wf := dot_S8x8x1024x1024_S8x8x1024x64_S8x8x1024x64_3_2_2_3_01_01_wf

class Facts : Prop extends Facts₀ where

variable [Facts]
-- ==== Proof.Head.lean ====
/-
  One attention head of the kernel's body, written once as a function of the head's 1024 × 64 slab, for any float
  instance; and the whole body as the eight heads side by side.

  A head takes the first eight columns of its slab, halves them, and builds from their cosines and sines the
  1024 × 256 feature array by doubling: start from the single column of ones, and for each wire put the array times
  that wire's cosine column beside the array times that wire's sine column.  The scores are the absolute values of
  the features' products row against row; each row of scores is exponentiated relative to its maximum and divided
  by its sum; the result multiplies the slab.

  The body the program prints is exactly these operations, head after head, so the printed block value is the
  eight heads side by side by unfolding definitions.
-/
import proofs.«108557_j65481071408018_2_alg».proof.Proof.Gen.KernelIdeal.Frame

noncomputable section

namespace Cert.KernelIdeal.Head

open Cert.KernelIdeal Cert.KernelIdeal.Gen Idealize.ShloMosaic Idealize.ShloMosaic.TcCoe

variable {F : FTy → Type} [FloatOps F]

/-- Half of each of the first eight columns of the slab. -/
def halfAngles (xh : FVec F S1024x64 .f32) : FVec F S1024x8 .f32 :=
  mulf (extractStridedSlice S1024x8 ![0, 0] xh slices_S1024x64_o0_0_S1024x8) (broadcast S1024x8 (Scalar.ofBits .f32 0x3F000000#32))

/-- The first doubling: the column of ones times the first cosine column beside the column of ones times the
    first sine column. -/
def dbl0 (c s : FVec F S1024x1 .f32) : FVec F S1024x2 .f32 :=
  concatenate S1024x2 1 [⟨S1024x1, mulf (broadcast S1024x1 (Scalar.ofBits .f32 0x3F800000#32)) c⟩,
    ⟨S1024x1, mulf (broadcast S1024x1 (Scalar.ofBits .f32 0x3F800000#32)) s⟩] concatenates_S1024x1_S1024x1_S1024x2_d1

/-- A later doubling: an array of width `n` times a cosine column beside the same array times a sine column. -/
def dbl (n n2 : ℕ) (hb : S1024x1.Broadcasts ⟨2, ![1024, n]⟩)
    (hc : Shape.Concatenates [(⟨2, ![1024, n]⟩ : Shape), ⟨2, ![1024, n]⟩] ⟨2, ![1024, n2]⟩ 1)
    (f : FVec F ⟨2, ![1024, n]⟩ .f32) (c s : FVec F S1024x1 .f32) : FVec F ⟨2, ![1024, n2]⟩ .f32 :=
  concatenate ⟨2, ![1024, n2]⟩ 1 [⟨⟨2, ![1024, n]⟩, mulf f (broadcastTo ⟨2, ![1024, n]⟩ c hb)⟩,
    ⟨⟨2, ![1024, n]⟩, mulf f (broadcastTo ⟨2, ![1024, n]⟩ s hb)⟩] hc

/-- The 256 features of every row, from the cosine and sine columns of the eight wires. -/
def features (c s : FVec F S1024x8 .f32) : FVec F S1024x256 .f32 :=
  dbl 128 256 broadcasts_S1024x1_S1024x128 concatenates_S1024x128_S1024x128_S1024x256_d1
    (dbl 64 128 broadcasts_S1024x1_S1024x64 concatenates_S1024x64_S1024x64_S1024x128_d1
      (dbl 32 64 broadcasts_S1024x1_S1024x32 concatenates_S1024x32_S1024x32_S1024x64_d1
        (dbl 16 32 broadcasts_S1024x1_S1024x16 concatenates_S1024x16_S1024x16_S1024x32_d1
          (dbl 8 16 broadcasts_S1024x1_S1024x8 concatenates_S1024x8_S1024x8_S1024x16_d1
            (dbl 4 8 broadcasts_S1024x1_S1024x4 concatenates_S1024x4_S1024x4_S1024x8_d1
              (dbl 2 4 broadcasts_S1024x1_S1024x2 concatenates_S1024x2_S1024x2_S1024x4_d1
                (dbl0 (extractStridedSlice S1024x1 ![0, 0] c slices_S1024x8_o0_0_S1024x1)
                  (extractStridedSlice S1024x1 ![0, 0] s slices_S1024x8_o0_0_S1024x1))
                (extractStridedSlice S1024x1 ![0, 1] c slices_S1024x8_o0_1_S1024x1)
                (extractStridedSlice S1024x1 ![0, 1] s slices_S1024x8_o0_1_S1024x1))
              (extractStridedSlice S1024x1 ![0, 2] c slices_S1024x8_o0_2_S1024x1)
              (extractStridedSlice S1024x1 ![0, 2] s slices_S1024x8_o0_2_S1024x1))
            (extractStridedSlice S1024x1 ![0, 3] c slices_S1024x8_o0_3_S1024x1)
            (extractStridedSlice S1024x1 ![0, 3] s slices_S1024x8_o0_3_S1024x1))
          (extractStridedSlice S1024x1 ![0, 4] c slices_S1024x8_o0_4_S1024x1)
          (extractStridedSlice S1024x1 ![0, 4] s slices_S1024x8_o0_4_S1024x1))
        (extractStridedSlice S1024x1 ![0, 5] c slices_S1024x8_o0_5_S1024x1)
        (extractStridedSlice S1024x1 ![0, 5] s slices_S1024x8_o0_5_S1024x1))
      (extractStridedSlice S1024x1 ![0, 6] c slices_S1024x8_o0_6_S1024x1)
      (extractStridedSlice S1024x1 ![0, 6] s slices_S1024x8_o0_6_S1024x1))
    (extractStridedSlice S1024x1 ![0, 7] c slices_S1024x8_o0_7_S1024x1)
    (extractStridedSlice S1024x1 ![0, 7] s slices_S1024x8_o0_7_S1024x1)

/-- The scores: absolute values of the features' products, row against row. -/
def scores (f : FVec F S1024x256 .f32) : FVec F S1024x1024 .f32 :=
  absf (matmul dot_S1024x256_S256x1024_S1024x1024_1_0_0_1_n_n none (truncf .bf16 f bitsLt_bf16_f32)
    (transpose S256x1024 [1, 0] (truncf .bf16 f bitsLt_bf16_f32) transposes_S1024x256_p1_0_S256x1024)
    (constant S1024x1024 .f32 0x00000000#32))

/-- Each row exponentiated relative to its maximum. -/
def expRows (sc : FVec F S1024x1024 .f32) : FVec F S1024x1024 .f32 :=
  exp (subf sc (broadcastTo S1024x1024 (shapeCast S1024x1
    (multiReduction .maximumf [1] S1024 sc 0xFF800000#32 reduces_S1024x1024_S1024 (.inl rfl) rfl)
    shapeCasts_S1024_S1024x1) broadcasts_S1024x1_S1024x1024))

/-- Each row divided by its sum. -/
def normRows (p : FVec F S1024x1024 .f32) : FVec F S1024x1024 .f32 :=
  divf p (broadcastTo S1024x1024 (shapeCast S1024x1
    (multiReduction .add [1] S1024 p 0x00000000#32 reduces_S1024x1024_S1024 (.inl rfl) rfl)
    shapeCasts_S1024_S1024x1) broadcasts_S1024x1_S1024x1024)

/-- One head: the normalized exponentiated scores times the slab. -/
def headOut (xh : FVec F S1024x64 .f32) : FVec F S1024x64 .f32 :=
  matmul dot_S1024x1024_S1024x64_S1024x64_1_0_0_1_n_n none
    (normRows (expRows (scores (features (cos (halfAngles xh)) (sin (halfAngles xh)))))) xh
    (constant S1024x64 .f32 0x00000000#32)

/-- The eight heads of a 1024 × 512 slab side by side. -/
def allHeads (v : FVec F S1024x512 .f32) : FVec F S1024x512 .f32 :=
  concatenate S1024x512 1 [
    ⟨S1024x64, headOut (extractStridedSlice S1024x64 ![0, 0] v slices_S1024x512_o0_0_S1024x64)⟩,
    ⟨S1024x64, headOut (extractStridedSlice S1024x64 ![0, 64] v slices_S1024x512_o0_64_S1024x64)⟩,
    ⟨S1024x64, headOut (extractStridedSlice S1024x64 ![0, 128] v slices_S1024x512_o0_128_S1024x64)⟩,
    ⟨S1024x64, headOut (extractStridedSlice S1024x64 ![0, 192] v slices_S1024x512_o0_192_S1024x64)⟩,
    ⟨S1024x64, headOut (extractStridedSlice S1024x64 ![0, 256] v slices_S1024x512_o0_256_S1024x64)⟩,
    ⟨S1024x64, headOut (extractStridedSlice S1024x64 ![0, 320] v slices_S1024x512_o0_320_S1024x64)⟩,
    ⟨S1024x64, headOut (extractStridedSlice S1024x64 ![0, 384] v slices_S1024x512_o0_384_S1024x64)⟩,
    ⟨S1024x64, headOut (extractStridedSlice S1024x64 ![0, 448] v slices_S1024x512_o0_448_S1024x64)⟩]
    concatenates_S1024x64_S1024x64_S1024x64_S1024x64_S1024x64_S1024x64_S1024x64_S1024x64_S1024x512_d1

set_option maxRecDepth 65536 in
/-- What the body leaves in the output block: the eight heads of the loaded slab, stored whole. -/
theorem block_eq (x0 : Vec F S1x1024x512 .f32) :
    out0_1 x0 = View.canon [⟨r0_0, shapeCast S1x1024x512
      (allHeads (shapeCast S1024x512 (View.ld x0 r0_0) shapeCasts_S1x1024x512_S1024x512)) shapeCasts_S1024x512_S1x1024x512⟩] := rfl

end Cert.KernelIdeal.Head

end
-- ==== Proof.LibDoubledGram.lean ====
/-
  General facts on the extended reals about features doubled wire by wire, for any sizes.

  A list of real features doubled by a new wire (every feature times c, then every feature times s) has, against
  another list doubled by (c', s'), the old inner product times  c c' + s s'.  With c, s the cosine and sine of half
  angles that factor is the cosine of half the angles' difference.  Also here: the coercion of a finite sum of reals,
  and the extended reals that the f32 words of 1, 1/2 and −∞ denote.
-/
import Mathlib
import Idealize.ShloMosaic.PureOps.Ideal
import Idealize.ShloMosaic.PureOps.Ideal.Laws

noncomputable section

open scoped BigOperators

namespace Cert.Overlap

open Idealize.ShloMosaic

/-! ## The three float words the programs spell -/

/-- The word of 1.0 denotes one. -/
theorem ofBits_one : Ideal.ofBits .f32 0x3F800000#32 = ((1 : ℝ) : EReal) := by
  simp [Ideal.ofBits, Ideal.ieee, -EReal.coe_mul]; norm_num

/-- The word of 0.5 denotes one half. -/
theorem ofBits_half : Ideal.ofBits .f32 0x3F000000#32 = ((1 / 2 : ℝ) : EReal) := by
  simp [Ideal.ofBits, Ideal.ieee, -EReal.coe_mul]; norm_num

/-- The word of −∞ denotes the bottom element. -/
theorem ofBits_ninf : Ideal.ofBits .f32 0xFF800000#32 = (⊥ : EReal) := by
  simp [Ideal.ofBits, Ideal.ieee]

/-! ## Sums of reals inside the extended reals -/

/-- The coercion of a finite sum of reals is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## One wire more: the inner product picks up  c c' + s s' -/

/-- Adding a wire to two real feature lists: the doubled lists' inner product is the old one times
    c c' + s s'. -/
theorem gram_double_real {n : ℕ} (f g : Fin n → ℝ) (c s c' s' : ℝ) :
    (∑ q : Fin n, (f q * c) * (g q * c')) + (∑ q : Fin n, (f q * s) * (g q * s'))
      = (∑ q : Fin n, f q * g q) * (c * c' + s * s') := by
  rw [mul_add, Finset.sum_mul, Finset.sum_mul, ← Finset.sum_add_distrib, ← Finset.sum_add_distrib]
  refine Finset.sum_congr rfl fun q _ => ?_
  ring

/-- The same on extended reals that are reals: a feature array `F` of width `n + n` whose first half is
    `f · c` and second half `f · s`, row by row. -/
theorem gram_double {n : ℕ} (Fi Fj : Fin (n + n) → EReal) (fi fj : Fin n → ℝ) (ci si cj sj : ℝ)
    (hil : ∀ q : Fin n, Fi (Fin.castAdd n q) = ((fi q : ℝ) : EReal) * (ci : EReal))
    (hir : ∀ q : Fin n, Fi (Fin.natAdd n q) = ((fi q : ℝ) : EReal) * (si : EReal))
    (hjl : ∀ q : Fin n, Fj (Fin.castAdd n q) = ((fj q : ℝ) : EReal) * (cj : EReal))
    (hjr : ∀ q : Fin n, Fj (Fin.natAdd n q) = ((fj q : ℝ) : EReal) * (sj : EReal)) :
    ∑ q : Fin (n + n), Fi q * Fj q = (((∑ q : Fin n, fi q * fj q) * (ci * cj + si * sj) : ℝ) : EReal) := by
  rw [Fin.sum_univ_add]
  simp only [hil, hir, hjl, hjr, ← EReal.coe_mul, ← coe_sum, ← EReal.coe_add]
  exact congrArg _ (gram_double_real fi fj ci si cj sj)

/-! ## The angle-difference formula at half angles -/

/-- cos ((a − b)/2) = cos (a/2) cos (b/2) + sin (a/2) sin (b/2). -/
theorem cos_half_sub (a b : ℝ) :
    Real.cos ((a - b) * (1 / 2)) = Real.cos (a * (1 / 2)) * Real.cos (b * (1 / 2)) + Real.sin (a * (1 / 2)) * Real.sin (b * (1 / 2)) := by
  rw [sub_mul, Real.cos_sub]

end Cert.Overlap

end
-- ==== Proof.Overlap.lean ====
/-
  The mathematics of the overlap scores, on the extended reals, free of any program.

  A row of eight real angles a_0 … a_7 has the 256 features  F_k = ∏_w (cos (a_w/2) or sin (a_w/2)),  one per choice of
  cosine or sine at each wire.  Two rows' features have the inner product

      ∑_k F_k(a) F_k(b) = ∏_w (cos (a_w/2) cos (b_w/2) + sin (a_w/2) sin (b_w/2)) = ∏_w cos ((a_w − b_w)/2),

  the first equality wire by wire (adding a wire doubles the feature list: every old feature times the new cosine, then
  every old feature times the new sine, so the inner product picks up the factor  c c' + s s'), the second the
  angle-difference formula.  Everything here is a real number, which is what makes the distributive steps valid on
  the extended reals: a product or sum of reals is the real product or sum.
-/
import Mathlib
import proofs.«108557_j65481071408018_2_alg».proof.Proof.LibDoubledGram
import Idealize.ShloMosaic.PureOps.Ideal
import Idealize.ShloMosaic.PureOps.Ideal.Laws
import Idealize.ShloMosaic.Lib.ValueIdx

noncomputable section

open scoped BigOperators

namespace Cert.Overlap

open Idealize.ShloMosaic Idealize.ShloMosaic.ValueIdx

/-! ## The overlap score of two rows, and attention along a row -/

/-- One wire's factor: the cosine of half the difference of the two angles. -/
def wire (a b : EReal) : EReal := Ideal.cos ((a - b) * Ideal.ofBits .f32 0x3F000000#32)

/-- The overlap of two rows of eight angles: one times the eight wires' factors, in order. -/
def overlap (u v : Fin 8 → EReal) : EReal :=
  Ideal.ofBits .f32 0x3F800000#32 * wire (u 0) (v 0) * wire (u 1) (v 1) * wire (u 2) (v 2) * wire (u 3) (v 3)
    * wire (u 4) (v 4) * wire (u 5) (v 5) * wire (u 6) (v 6) * wire (u 7) (v 7)

/-- One wire's factor of two real angles in product form. -/
def pairF (a b : ℝ) : ℝ :=
  Real.cos (a * (1 / 2)) * Real.cos (b * (1 / 2)) + Real.sin (a * (1 / 2)) * Real.sin (b * (1 / 2))

/-- For real angles the overlap is the real product of the wires' factors in product form. -/
theorem overlap_real (a b : Fin 8 → ℝ) :
    overlap (fun w => ((a w : ℝ) : EReal)) (fun w => ((b w : ℝ) : EReal))
      = ((1 * pairF (a 0) (b 0) * pairF (a 1) (b 1) * pairF (a 2) (b 2) * pairF (a 3) (b 3)
          * pairF (a 4) (b 4) * pairF (a 5) (b 5) * pairF (a 6) (b 6) * pairF (a 7) (b 7) : ℝ) : EReal) := by
  simp only [overlap, wire, ofBits_one, ofBits_half, ← EReal.coe_sub, ← EReal.coe_mul, Ideal.cos_coe, cos_half_sub, pairF]

/-- The absolute value on the extended reals. -/
def absE (x : EReal) : EReal := max x (-x)

/-- The largest entry of a row, from −∞. -/
def rowMax (S : Fin 1024 → EReal) : EReal :=
  (Finset.univ : Finset (Fin 1024)).fold max (Ideal.ofBits .f32 0xFF800000#32) S

/-- Attention along one row: each score exponentiated relative to the row's maximum, divided by the sum of those
    exponentials, times the value at that position, summed over the positions. -/
def attend (S V : Fin 1024 → EReal) : EReal :=
  ∑ j : Fin 1024, Ideal.div (Ideal.exp (S j - rowMax S)) (∑ k : Fin 1024, Ideal.exp (S k - rowMax S)) * V j

/-- The maximum with −∞ changes nothing. -/
theorem max_ninf (x : EReal) : max (Ideal.ofBits .f32 0xFF800000#32) x = x := by
  rw [ofBits_ninf]; exact max_eq_right bot_le

/-! ## The whole result: eight heads of attention over every batch -/

/-- Wire `w` as a column of a head's 64 columns. -/
abbrev wcol (w : Fin 8) : Fin 64 := Fin.castLE (by norm_num) w

/-- Column `d` of head `h` among the 512 columns. -/
def col (h : Fin 8) (d : Fin 64) : Fin 512 := ⟨h.val * 64 + d.val, by have := h.isLt; have := d.isLt; omega⟩

/-- The eight angles of row `s` of head `h` of batch `b`. -/
def rowOf (x : (⟨3, ![8, 1024, 512]⟩ : Shape).Idx → EReal) (b h : Fin 8) (s : Fin 1024) : Fin 8 → EReal :=
  fun w => x (ix3 b s (col h (wcol w)))

/-- Entry (i, d) of head `h` of batch `b`: attention along row i with the absolute overlaps as scores and column
    `d` of the head as values. -/
def attention (x : (⟨3, ![8, 1024, 512]⟩ : Shape).Idx → EReal) (b h : Fin 8) (i : Fin 1024) (d : Fin 64) : EReal :=
  attend (fun j => absE (overlap (rowOf x b h i) (rowOf x b h j))) (fun j => x (ix3 b j (col h d)))

/-- The result array: at (b, i, e) head e / 64 at entry (i, e mod 64). -/
def result (x : (⟨3, ![8, 1024, 512]⟩ : Shape).Idx → EReal) : (⟨3, ![8, 1024, 512]⟩ : Shape).Idx → EReal := fun idx =>
  attention x (idx 0) ⟨(idx 2).val / 64, by have h : (idx 2).val < 512 := (idx 2).isLt; omega⟩ (idx 1)
    ⟨(idx 2).val % 64, Nat.mod_lt _ (by norm_num)⟩

end Cert.Overlap

end
-- ==== Proof.LibRowMatmul.lean ====
/-
  General facts at the ideal values, for any sizes.

  A matrix product into the zero accumulator read at an entry, for the two ways a rank-2 pair is contracted here:
  rows against rows (the last axis of both operands: `A · Bᵀ`) and rows against columns (`A · B`). Each is the plain
  finite sum over the contracted coordinate. The dimension numbers are any record with one contracted axis whose
  kept coordinates are the output's; a caller supplies those coordinate facts for its own record.

  And the maximum along the rows of an `a × b` array, and the host's maximum along the last axis of an
  `n0 × n1 × n2` array, each as the fold of `max` from the starting value over the coordinates of that axis.
-/
import Idealize.ShloMosaic.PureOps.Ideal.Laws
import Idealize.ShloMosaic.PureOps.Reduce
import Idealize.ShloMosaic.Lib.ValueIdx

namespace Cert.Lib.RowMatmul

open Idealize.ShloMosaic Idealize.ShloMosaic.ValueIdx

/-- Rows against rows: `(A · Bᵀ)(a, b) = ∑ c, A(a, c) · B(b, c)`. -/
theorem matmul_rows_apply {m k n : ℕ} {φ₁ φ₂ : FTy} (D : DotDims ⟨2, ![m, k]⟩ ⟨2, ![n, k]⟩ ⟨2, ![m, n]⟩)
    (hl : D.lhsContracting = [1]) (hr : D.rhsContracting = [1])
    (hrank : D.contr.rank = 1) (hsize : D.contr.size ⟨0, by omega⟩ = k)
    (h0 : ∀ j q, (D.lhsIdx j q 0).val = (j 0).val) (h1 : ∀ j q, (D.rhsIdx j q 0).val = (j 1).val)
    (prec : Option ContractPrecision) (A : FVec Ideal ⟨2, ![m, k]⟩ φ₁) (B : FVec Ideal ⟨2, ![n, k]⟩ φ₂)
    (a : Fin m) (b : Fin n) :
    matmul D prec A B (constant ⟨2, ![m, n]⟩ .f32 0x00000000#32) (ix2 a b) = ∑ c : Fin k, A (ix2 a c) * B (ix2 b c) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 b c := funext fun ax => Fin.ext (by
    match ax with
    | ⟨0, _⟩ => exact h1 _ _
    | ⟨1, _⟩ => exact (D.rhsIdx_val_of_single hr _ _).trans hk)
  rw [el, er]

/-- Rows against columns: `(A · B)(a, b) = ∑ c, A(a, c) · B(c, b)`. -/
theorem matmul_cols_apply {m k n : ℕ} {φ₁ φ₂ : FTy} (D : DotDims ⟨2, ![m, k]⟩ ⟨2, ![k, n]⟩ ⟨2, ![m, n]⟩)
    (hl : D.lhsContracting = [1]) (hr : D.rhsContracting = [0])
    (hrank : D.contr.rank = 1) (hsize : D.contr.size ⟨0, by omega⟩ = k)
    (h0 : ∀ j q, (D.lhsIdx j q 0).val = (j 0).val) (h1 : ∀ j q, (D.rhsIdx j q 1).val = (j 1).val)
    (prec : Option ContractPrecision) (A : FVec Ideal ⟨2, ![m, k]⟩ φ₁) (B : FVec Ideal ⟨2, ![k, n]⟩ φ₂)
    (a : Fin m) (b : Fin n) :
    matmul D prec A B (constant ⟨2, ![m, n]⟩ .f32 0x00000000#32) (ix2 a b) = ∑ c : Fin k, A (ix2 a c) * B (ix2 c b) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 c b := funext fun ax => Fin.ext (by
    match ax with
    | ⟨0, _⟩ => exact (D.rhsIdx_val_of_single hr _ _).trans hk
    | ⟨1, _⟩ => exact h1 _ _)
  rw [el, er]

/-- The maximum along each row of an `a × b` array: at row `r`, the fold of `max` from the accumulator's value
    over the `b` columns. -/
theorem rowMax_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => Finset.fold max (Ideal.ofBits φ acc) f (Finset.univ : Finset (Fin b))) ?_
  funext k
  refine congrArg src ?_
  funext ax; apply Fin.ext
  match ax with
  | ⟨0, _⟩ => rfl
  | ⟨1, _⟩ => rfl

/-- The host's maximum along the last axis of an `n0 × n1 × n2` array: at `(p, q)`, the fold of `max` from the
    starting value over the `n2` coordinates. -/
theorem hostLastMax_apply {n0 n1 n2 : ℕ} {φ : FTy} {u : Shape} (x : FVec Ideal ⟨3, ![n0, n1, n2]⟩ φ) (init : u.Idx → Ideal φ)
    (h' : Shape.ReducesTo ⟨3, ![n0, n1, n2]⟩ [2] ⟨2, ![n0, n1]⟩) (h : Shape.Reduces ⟨3, ![n0, n1, n2]⟩ [2] ⟨2, ![n0, n1]⟩)
    (hu : 0 < u.numel) (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  refine congrArg (fun f => Finset.fold max (init (Shape.Idx.first hu)) f (Finset.univ : Finset (Fin n2))) ?_
  funext k
  refine congrArg x ?_
  funext ax; apply Fin.ext
  match ax with
  | ⟨0, _⟩ => rfl
  | ⟨1, _⟩ => rfl
  | ⟨2, _⟩ => rfl

end Cert.Lib.RowMatmul
-- ==== Proof.LibColumnForms.lean ====
/-
  General facts about rank-2 arrays, for any sizes.

  The column forms a row-wise reduction with kept dimensions needs: a vector of `a` row values viewed as an `a × 1`
  column, and such a column spread over `b` columns.  And the two one-axis sums of an `a × b` array of extended reals:
  along the rows' entries (one value per row) and down the columns (one value per column), each as a plain finite sum.
-/
import Idealize.ShloMosaic.PureOps.Ideal.Laws
import Idealize.ShloMosaic.Lib.ValueIdx
import Idealize.ShloMosaic.Lib.ValueLayout
import Idealize.ShloMosaic.Lib.Pipeline.Value

namespace Cert.Lib.ColumnForms

open Idealize.ShloMosaic Idealize.ShloMosaic.ValueIdx

variable {α : Type}

/-- An `[a]` array cast to an `[a, 1]` column reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The sum along each row of an `a × b` array of extended reals: at row `r`, the sum over the `b` columns. -/
theorem rowSum_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax; apply Fin.ext
  match ax with
  | ⟨0, _⟩ => rfl
  | ⟨1, _⟩ => rfl

/-- The sum down each column of an `a × b` array of extended reals: at column `c`, the sum over the `a` rows. -/
theorem colSum_apply {a b : ℕ} {φ : FTy} (src : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src ?_
  funext ax; apply Fin.ext
  match ax with
  | ⟨0, _⟩ => rfl
  | ⟨1, _⟩ => rfl

end Cert.Lib.ColumnForms
-- ==== Proof.HeadValue.lean ====
/-
  One head of the kernel at the ideal values, entry by entry.

  For a slab of real numbers, entry (i, d) of the head is attention along row i: the scores are the absolute
  overlaps of row i with every row j, computed from the first eight columns of the two rows, and the values are
  column d of the slab.

  The overlaps come out of the feature products.  Each doubling step keeps every feature a real number and
  multiplies the rows' inner product by  c c' + s s'  of the new wire (the law of the doubled lists); after the
  eight wires the inner product of rows i and j is the product of the eight factors, which is the overlap by the
  angle-difference formula.  The row maximum, the row sum and the two matrix products are read as folds and plain
  finite sums.
-/
import proofs.«108557_j65481071408018_2_alg».proof.Proof.Head
import proofs.«108557_j65481071408018_2_alg».proof.Proof.Overlap
import proofs.«108557_j65481071408018_2_alg».proof.Proof.LibRowMatmul
import proofs.«108557_j65481071408018_2_alg».proof.Proof.LibColumnForms
import Idealize.ShloMosaic.Lib.ValueIdx
import Idealize.ShloMosaic.Lib.Pipeline.Value

noncomputable section

open scoped BigOperators

namespace Cert.KernelIdeal.HeadValue

open Cert.KernelIdeal Cert.KernelIdeal.Gen Cert.KernelIdeal.Head Idealize.ShloMosaic Idealize.ShloMosaic.ValueIdx
open Cert.Overlap

/-! ## The layout pieces -/

/-- Column `w` of a 1024 × 8 array taken out as a 1024 × 1 column. -/
theorem col_apply (w : ℕ) (hw : w < 8) (v : FVec Ideal S1024x8 .f32) (h : S1024x8.Slices ![0, w] S1024x1)
    (i : Fin 1024) (u : Fin 1) : extractStridedSlice S1024x1 ![0, w] v h (ix2 i u) = v (ix2 i ⟨w, hw⟩) :=
  extractStridedSlice_apply _ v h (ix2 i u) (ix2 i ⟨w, hw⟩) (fun a => by
    have hu := u.isLt
    match a with
    | ⟨0, _⟩ => show i.val = 0 + i.val; omega
    | ⟨1, _⟩ => show w = w + u.val; omega)

/-- The half angles: the slab's first eight columns times one half. -/
theorem halfAngles_apply (xh : FVec Ideal S1024x64 .f32) (i : Fin 1024) (w : Fin 8) :
    halfAngles xh (ix2 i w) = xh (ix2 i (wcol w)) * Ideal.ofBits .f32 0x3F000000#32 := by
  unfold halfAngles
  refine congrArg (· * Ideal.ofBits .f32 0x3F000000#32)
    (extractStridedSlice_apply _ xh slices_S1024x64_o0_0_S1024x8 (ix2 i w) (ix2 i (wcol w)) (fun a => ?_))
  match a with
  | ⟨0, _⟩ => show i.val = 0 + i.val; omega
  | ⟨1, _⟩ => show w.val = 0 + w.val; omega

/-- The first doubling, left column. -/
theorem dbl0_left (c s : FVec Ideal S1024x1 .f32) (i : Fin 1024) :
    dbl0 c s (ix2 i (0 : Fin 2)) = Ideal.ofBits .f32 0x3F800000#32 * c (ix2 i (0 : Fin 1)) := by
  unfold dbl0
  refine (concatenate_pair_apply_left (1 : Fin S1024x2.rank) _ _ concatenates_S1024x1_S1024x1_S1024x2_d1
    (ix2 i (0 : Fin 2)) rfl (ix2 i (0 : Fin 1)) (fun b => ?_)).trans rfl
  match b with
  | ⟨0, _⟩ => rfl
  | ⟨1, _⟩ => rfl

/-- The first doubling, right column. -/
theorem dbl0_right (c s : FVec Ideal S1024x1 .f32) (i : Fin 1024) :
    dbl0 c s (ix2 i (1 : Fin 2)) = Ideal.ofBits .f32 0x3F800000#32 * s (ix2 i (0 : Fin 1)) := by
  unfold dbl0
  refine (concatenate_pair_apply_right (1 : Fin S1024x2.rank) _ _ concatenates_S1024x1_S1024x1_S1024x2_d1
    (ix2 i (1 : Fin 2)) rfl rfl (ix2 i (0 : Fin 1)) (fun b hb => ?_) rfl).trans rfl
  match b with
  | ⟨0, _⟩ => rfl
  | ⟨1, _⟩ => exact absurd rfl hb

/-- A later doubling, left half: the old array times the cosine column. -/
theorem dbl_castAdd (n : ℕ) (hb : S1024x1.Broadcasts ⟨2, ![1024, n]⟩)
    (hc : Shape.Concatenates [(⟨2, ![1024, n]⟩ : Shape), ⟨2, ![1024, n]⟩] ⟨2, ![1024, n + n]⟩ 1)
    (f : FVec Ideal ⟨2, ![1024, n]⟩ .f32) (c s : FVec Ideal S1024x1 .f32) (i : Fin 1024) (q : Fin n) :
    dbl n (n + n) hb hc f c s (ix2 i (Fin.castAdd n q)) = f (ix2 i q) * c (ix2 i (0 : Fin 1)) := by
  unfold dbl
  refine (concatenate_pair_apply_left (1 : Fin (⟨2, ![1024, n + n]⟩ : Shape).rank) _ _ hc
    (ix2 i (Fin.castAdd n q)) rfl (ix2 i q) (fun b => ?_)).trans ?_
  · match b with
    | ⟨0, _⟩ => rfl
    | ⟨1, _⟩ => rfl
  · exact congrArg (f (ix2 i q) * ·) (Cert.Lib.ColumnForms.broadcastTo_a1_ab_apply c hb i q)

/-- A later doubling, right half: the old array times the sine column. -/
theorem dbl_natAdd (n : ℕ) (hb : S1024x1.Broadcasts ⟨2, ![1024, n]⟩)
    (hc : Shape.Concatenates [(⟨2, ![1024, n]⟩ : Shape), ⟨2, ![1024, n]⟩] ⟨2, ![1024, n + n]⟩ 1)
    (f : FVec Ideal ⟨2, ![1024, n]⟩ .f32) (c s : FVec Ideal S1024x1 .f32) (i : Fin 1024) (q : Fin n) :
    dbl n (n + n) hb hc f c s (ix2 i (Fin.natAdd n q)) = f (ix2 i q) * s (ix2 i (0 : Fin 1)) := by
  unfold dbl
  refine (concatenate_pair_apply_right (1 : Fin (⟨2, ![1024, n + n]⟩ : Shape).rank) _ _ hc
    (ix2 i (Fin.natAdd n q)) rfl rfl (ix2 i q) (fun b hb' => ?_) ?_).trans ?_
  · match b with
    | ⟨0, _⟩ => rfl
    | ⟨1, _⟩ => exact absurd rfl hb'
  · show q.val + n = n + q.val
    omega
  · exact congrArg (f (ix2 i q) * ·) (Cert.Lib.ColumnForms.broadcastTo_a1_ab_apply s hb i q)

/-! ## The features are reals, and their inner products multiply wire by wire -/

/-- The first doubling: two real features per row, with inner product  1 · (c c' + s s'). -/
theorem dbl0_feat (c s : FVec Ideal S1024x1 .f32) (C S : Fin 1024 → ℝ)
    (hC : ∀ i, c (ix2 i (0 : Fin 1)) = ((C i : ℝ) : EReal)) (hS : ∀ i, s (ix2 i (0 : Fin 1)) = ((S i : ℝ) : EReal)) :
    ∃ fr : Fin 1024 → Fin 2 → ℝ, (∀ i q, dbl0 c s (ix2 i q) = ((fr i q : ℝ) : EReal))
      ∧ ∀ i j, ∑ q, fr i q * fr j q = 1 * (C i * C j + S i * S j) := by
  refine ⟨fun i => ![1 * C i, 1 * S i], fun i q => ?_, fun i j => ?_⟩
  · match q with
    | ⟨0, _⟩ =>
      refine (dbl0_left c s i).trans ?_
      rw [hC, ofBits_one, ← EReal.coe_mul]; rfl
    | ⟨1, _⟩ =>
      refine (dbl0_right c s i).trans ?_
      rw [hS, ofBits_one, ← EReal.coe_mul]; rfl
  · rw [Fin.sum_univ_two]
    simp only [Matrix.cons_val_zero, Matrix.cons_val_one, Matrix.head_cons]
    ring

/-- A later doubling keeps the features real and multiplies the inner products by  c c' + s s'. -/
theorem dbl_feat (n n2 : ℕ) (h2 : n2 = n + n) (hb : S1024x1.Broadcasts ⟨2, ![1024, n]⟩)
    (hc : Shape.Concatenates [(⟨2, ![1024, n]⟩ : Shape), ⟨2, ![1024, n]⟩] ⟨2, ![1024, n2]⟩ 1)
    (f : FVec Ideal ⟨2, ![1024, n]⟩ .f32) (c s : FVec Ideal S1024x1 .f32)
    (fr : Fin 1024 → Fin n → ℝ) (C S : Fin 1024 → ℝ) (g : Fin 1024 → Fin 1024 → ℝ)
    (hf : ∀ i q, f (ix2 i q) = ((fr i q : ℝ) : EReal)) (hg : ∀ i j, ∑ q, fr i q * fr j q = g i j)
    (hC : ∀ i, c (ix2 i (0 : Fin 1)) = ((C i : ℝ) : EReal)) (hS : ∀ i, s (ix2 i (0 : Fin 1)) = ((S i : ℝ) : EReal)) :
    ∃ fr' : Fin 1024 → Fin n2 → ℝ, (∀ i q, dbl n n2 hb hc f c s (ix2 i q) = ((fr' i q : ℝ) : EReal))
      ∧ ∀ i j, ∑ q, fr' i q * fr' j q = g i j * (C i * C j + S i * S j) := by
  subst h2
  refine ⟨fun i => Fin.addCases (fun q => fr i q * C i) (fun q => fr i q * S i), fun i q => ?_, fun i j => ?_⟩
  · induction q using Fin.addCases with
    | left q => rw [dbl_castAdd, hf, hC]; simp only [Fin.addCases_left, EReal.coe_mul]
    | right q => rw [dbl_natAdd, hf, hS]; simp only [Fin.addCases_right, EReal.coe_mul]
  · rw [Fin.sum_univ_add]
    simp only [Fin.addCases_left, Fin.addCases_right]
    rw [gram_double_real, hg]

/-- The 256 features of every row are reals, and two rows' features have the product of the eight wires'
    factors  c c' + s s'  as inner product. -/
theorem features_feat (c s : FVec Ideal S1024x8 .f32) (C S : Fin 1024 → Fin 8 → ℝ)
    (hC : ∀ i w, c (ix2 i w) = ((C i w : ℝ) : EReal)) (hS : ∀ i w, s (ix2 i w) = ((S i w : ℝ) : EReal)) :
    ∃ fr : Fin 1024 → Fin 256 → ℝ, (∀ i q, features c s (ix2 i q) = ((fr i q : ℝ) : EReal))
      ∧ ∀ i j, ∑ q, fr i q * fr j q
          = 1 * (C i 0 * C j 0 + S i 0 * S j 0) * (C i 1 * C j 1 + S i 1 * S j 1) * (C i 2 * C j 2 + S i 2 * S j 2)
            * (C i 3 * C j 3 + S i 3 * S j 3) * (C i 4 * C j 4 + S i 4 * S j 4) * (C i 5 * C j 5 + S i 5 * S j 5)
            * (C i 6 * C j 6 + S i 6 * S j 6) * (C i 7 * C j 7 + S i 7 * S j 7) := by
  have colC : ∀ (w : ℕ) (hw : w < 8) (h : S1024x8.Slices ![0, w] S1024x1) (i : Fin 1024),
      extractStridedSlice S1024x1 ![0, w] c h (ix2 i (0 : Fin 1)) = ((C i ⟨w, hw⟩ : ℝ) : EReal) :=
    fun w hw h i => (col_apply w hw c h i 0).trans (hC i ⟨w, hw⟩)
  have colS : ∀ (w : ℕ) (hw : w < 8) (h : S1024x8.Slices ![0, w] S1024x1) (i : Fin 1024),
      extractStridedSlice S1024x1 ![0, w] s h (ix2 i (0 : Fin 1)) = ((S i ⟨w, hw⟩ : ℝ) : EReal) :=
    fun w hw h i => (col_apply w hw s h i 0).trans (hS i ⟨w, hw⟩)
  obtain ⟨f1, hf1, hg1⟩ := dbl0_feat _ _ (fun i => C i 0) (fun i => S i 0)
    (colC 0 (by norm_num) slices_S1024x8_o0_0_S1024x1) (colS 0 (by norm_num) slices_S1024x8_o0_0_S1024x1)
  obtain ⟨f2, hf2, hg2⟩ := dbl_feat 2 4 rfl broadcasts_S1024x1_S1024x2 concatenates_S1024x2_S1024x2_S1024x4_d1 _ _ _
    f1 (fun i => C i 1) (fun i => S i 1) _ hf1 hg1
    (colC 1 (by norm_num) slices_S1024x8_o0_1_S1024x1) (colS 1 (by norm_num) slices_S1024x8_o0_1_S1024x1)
  obtain ⟨f3, hf3, hg3⟩ := dbl_feat 4 8 rfl broadcasts_S1024x1_S1024x4 concatenates_S1024x4_S1024x4_S1024x8_d1 _ _ _
    f2 (fun i => C i 2) (fun i => S i 2) _ hf2 hg2
    (colC 2 (by norm_num) slices_S1024x8_o0_2_S1024x1) (colS 2 (by norm_num) slices_S1024x8_o0_2_S1024x1)
  obtain ⟨f4, hf4, hg4⟩ := dbl_feat 8 16 rfl broadcasts_S1024x1_S1024x8 concatenates_S1024x8_S1024x8_S1024x16_d1 _ _ _
    f3 (fun i => C i 3) (fun i => S i 3) _ hf3 hg3
    (colC 3 (by norm_num) slices_S1024x8_o0_3_S1024x1) (colS 3 (by norm_num) slices_S1024x8_o0_3_S1024x1)
  obtain ⟨f5, hf5, hg5⟩ := dbl_feat 16 32 rfl broadcasts_S1024x1_S1024x16 concatenates_S1024x16_S1024x16_S1024x32_d1 _ _ _
    f4 (fun i => C i 4) (fun i => S i 4) _ hf4 hg4
    (colC 4 (by norm_num) slices_S1024x8_o0_4_S1024x1) (colS 4 (by norm_num) slices_S1024x8_o0_4_S1024x1)
  obtain ⟨f6, hf6, hg6⟩ := dbl_feat 32 64 rfl broadcasts_S1024x1_S1024x32 concatenates_S1024x32_S1024x32_S1024x64_d1 _ _ _
    f5 (fun i => C i 5) (fun i => S i 5) _ hf5 hg5
    (colC 5 (by norm_num) slices_S1024x8_o0_5_S1024x1) (colS 5 (by norm_num) slices_S1024x8_o0_5_S1024x1)
  obtain ⟨f7, hf7, hg7⟩ := dbl_feat 64 128 rfl broadcasts_S1024x1_S1024x64 concatenates_S1024x64_S1024x64_S1024x128_d1 _ _ _
    f6 (fun i => C i 6) (fun i => S i 6) _ hf6 hg6
    (colC 6 (by norm_num) slices_S1024x8_o0_6_S1024x1) (colS 6 (by norm_num) slices_S1024x8_o0_6_S1024x1)
  obtain ⟨f8, hf8, hg8⟩ := dbl_feat 128 256 rfl broadcasts_S1024x1_S1024x128 concatenates_S1024x128_S1024x128_S1024x256_d1 _ _ _
    f7 (fun i => C i 7) (fun i => S i 7) _ hf7 hg7
    (colC 7 (by norm_num) slices_S1024x8_o0_7_S1024x1) (colS 7 (by norm_num) slices_S1024x8_o0_7_S1024x1)
  exact ⟨f8, hf8, hg8⟩

/-! ## The two matrix products, the row maximum and the row sum -/

theorem featDot_lhs0 (j : S1024x1024.Idx) (q : dot_S1024x256_S256x1024_S1024x1024_1_0_0_1_n_n.contr.Idx) :
    (dot_S1024x256_S256x1024_S1024x1024_1_0_0_1_n_n.lhsIdx j q 0).val = (j 0).val := by
  unfold DotDims.lhsIdx
  rw [dif_neg (show ¬ (0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
theorem featDot_rhs1 (j : S1024x1024.Idx) (q : dot_S1024x256_S256x1024_S1024x1024_1_0_0_1_n_n.contr.Idx) :
    (dot_S1024x256_S256x1024_S1024x1024_1_0_0_1_n_n.rhsIdx j q 1).val = (j 1).val := by
  unfold DotDims.rhsIdx
  rw [dif_neg (show ¬ (1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl
theorem outDot_lhs0 (j : S1024x64.Idx) (q : dot_S1024x1024_S1024x64_S1024x64_1_0_0_1_n_n.contr.Idx) :
    (dot_S1024x1024_S1024x64_S1024x64_1_0_0_1_n_n.lhsIdx j q 0).val = (j 0).val := by
  unfold DotDims.lhsIdx
  rw [dif_neg (show ¬ (0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem outDot_rhs1 (j : S1024x64.Idx) (q : dot_S1024x1024_S1024x64_S1024x64_1_0_0_1_n_n.contr.Idx) :
    (dot_S1024x1024_S1024x64_S1024x64_1_0_0_1_n_n.rhsIdx j q 1).val = (j 1).val := by
  unfold DotDims.rhsIdx
  rw [dif_neg (show ¬ (1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The score of rows i and j: the absolute value of their features' inner product. -/
theorem scores_apply (f : FVec Ideal S1024x256 .f32) (i j : Fin 1024) :
    scores f (ix2 i j) = absE (∑ k : Fin 256, f (ix2 i k) * f (ix2 j k)) := by
  have e : matmul dot_S1024x256_S256x1024_S1024x1024_1_0_0_1_n_n none (truncf .bf16 f bitsLt_bf16_f32)
      (transpose S256x1024 [1, 0] (truncf .bf16 f bitsLt_bf16_f32) transposes_S1024x256_p1_0_S256x1024)
      (constant S1024x1024 .f32 0x00000000#32) (ix2 i j) = ∑ k : Fin 256, f (ix2 i k) * f (ix2 j k) := by
    refine (Cert.Lib.RowMatmul.matmul_cols_apply dot_S1024x256_S256x1024_S1024x1024_1_0_0_1_n_n rfl rfl rfl rfl
      featDot_lhs0 featDot_rhs1 none _ _ i j).trans ?_
    refine Finset.sum_congr rfl fun k _ => ?_
    refine congrArg (f (ix2 i k) * ·) ?_
    exact transpose_apply [1, 0] (truncf .bf16 f bitsLt_bf16_f32) transposes_S1024x256_p1_0_S256x1024 (ix2 k j) (ix2 j k)
      (fun b => match b with
        | ⟨0, _⟩ => rfl
        | ⟨1, _⟩ => rfl)
  unfold scores
  exact congrArg absE e

/-- A row exponentiated relative to its maximum. -/
theorem expRows_apply (sc : FVec Ideal S1024x1024 .f32) (i j : Fin 1024) :
    expRows sc (ix2 i j) = Ideal.exp (sc (ix2 i j) - rowMax (fun k => sc (ix2 i k))) := by
  have hB : broadcastTo S1024x1024 (shapeCast S1024x1
      (multiReduction .maximumf [1] S1024 sc 0xFF800000#32 reduces_S1024x1024_S1024 (.inl rfl) rfl)
      shapeCasts_S1024_S1024x1) broadcasts_S1024x1_S1024x1024 (ix2 i j) = rowMax (fun k => sc (ix2 i k)) :=
    (Cert.Lib.ColumnForms.broadcastTo_a1_ab_apply _ _ i j).trans
      ((Cert.Lib.ColumnForms.shapeCast_a_a1_apply _ _ i 0).trans
        (Cert.Lib.RowMatmul.rowMax_apply sc _ reduces_S1024x1024_S1024 (.inl rfl) rfl i))
  unfold expRows
  exact congrArg (fun z => Ideal.exp (sc (ix2 i j) - z)) hB

/-- A row divided by its sum. -/
theorem normRows_apply (p : FVec Ideal S1024x1024 .f32) (i j : Fin 1024) :
    normRows p (ix2 i j) = Ideal.div (p (ix2 i j)) (∑ k : Fin 1024, p (ix2 i k)) := by
  have hB : broadcastTo S1024x1024 (shapeCast S1024x1
      (multiReduction .add [1] S1024 p 0x00000000#32 reduces_S1024x1024_S1024 (.inl rfl) rfl)
      shapeCasts_S1024_S1024x1) broadcasts_S1024x1_S1024x1024 (ix2 i j) = ∑ k : Fin 1024, p (ix2 i k) :=
    (Cert.Lib.ColumnForms.broadcastTo_a1_ab_apply _ _ i j).trans
      ((Cert.Lib.ColumnForms.shapeCast_a_a1_apply _ _ i 0).trans
        (Cert.Lib.ColumnForms.rowSum_apply p _ reduces_S1024x1024_S1024 (.inl rfl) rfl i))
  unfold normRows
  exact congrArg (fun z => Ideal.div (p (ix2 i j)) z) hB

/-! ## The head -/

/-- ENTRY (i, d) OF A HEAD over a slab of reals: attention along row i, the scores the absolute overlaps of row i
    with each row j on the slab's first eight columns, the values column d. -/
theorem headOut_apply (xh : FVec Ideal S1024x64 .f32) (X : Fin 1024 → Fin 64 → ℝ)
    (hX : ∀ i w, xh (ix2 i w) = ((X i w : ℝ) : EReal)) (i : Fin 1024) (d : Fin 64) :
    headOut xh (ix2 i d)
      = attend (fun j => absE (overlap (fun w => xh (ix2 i (wcol w))) (fun w => xh (ix2 j (wcol w)))))
          (fun j => xh (ix2 j d)) := by
  have hC : ∀ (i : Fin 1024) (w : Fin 8),
      cos (halfAngles xh) (ix2 i w) = ((Real.cos (X i (wcol w) * (1 / 2)) : ℝ) : EReal) := fun i w => by
    show Ideal.cos (halfAngles xh (ix2 i w)) = _
    rw [halfAngles_apply, hX, ofBits_half, ← EReal.coe_mul, Ideal.cos_coe]
  have hS : ∀ (i : Fin 1024) (w : Fin 8),
      sin (halfAngles xh) (ix2 i w) = ((Real.sin (X i (wcol w) * (1 / 2)) : ℝ) : EReal) := fun i w => by
    show Ideal.sin (halfAngles xh (ix2 i w)) = _
    rw [halfAngles_apply, hX, ofBits_half, ← EReal.coe_mul, Ideal.sin_coe]
  obtain ⟨fr, hfr, hg⟩ := features_feat _ _ _ _ hC hS
  have hsc : ∀ i j : Fin 1024, scores (features (cos (halfAngles xh)) (sin (halfAngles xh))) (ix2 i j)
      = absE (overlap (fun w => xh (ix2 i (wcol w))) (fun w => xh (ix2 j (wcol w)))) := fun i j => by
    rw [scores_apply]
    refine congrArg absE ?_
    simp only [hfr, ← EReal.coe_mul, ← coe_sum, hX]
    rw [hg i j]
    exact (overlap_real (fun w => X i (wcol w)) (fun w => X j (wcol w))).symm
  unfold headOut
  refine (Cert.Lib.RowMatmul.matmul_cols_apply dot_S1024x1024_S1024x64_S1024x64_1_0_0_1_n_n rfl rfl rfl rfl
    outDot_lhs0 outDot_rhs1 none _ xh i d).trans ?_
  unfold attend
  refine Finset.sum_congr rfl fun j _ => ?_
  refine congrArg (· * xh (ix2 j d)) ?_
  rw [normRows_apply]
  simp only [expRows_apply, hsc]

end Cert.KernelIdeal.HeadValue

end
-- ==== Proof.ArrayValue.lean ====
/-
  What the kernel's result array holds after the run, at the ideal values, for an argument of real numbers.

  Grid point t loads batch t of the argument as one 1024 × 512 slab and stores the eight heads of that slab side by
  side as batch t of the result.  Head h reads columns 64 h … 64 h + 63 of the slab, so entry (i, 64 h + d) of batch
  t is attention along row i of head h, column d.  The eight batches tile the result array, so the whole array is
  that function of the argument.
-/
import proofs.«108557_j65481071408018_2_alg».proof.Proof.HeadValue
import Idealize.ShloMosaic.Lib.Pipeline.Value

set_option maxRecDepth 16384

noncomputable section

open scoped BigOperators

namespace Cert.KernelIdeal.ArrayValue

open Cert.KernelIdeal Cert.KernelIdeal.Gen Cert.KernelIdeal.Head Cert.KernelIdeal.HeadValue
open Idealize.ShloMosaic Idealize.ShloMosaic.TcCoe Idealize.ShloMosaic.ValueIdx Idealize.SL.Sem
open Idealize.ShloMosaic.Pipeline (Dat)
open Cert.Overlap

/-! ## The eight heads side by side, read at an entry -/

section AnyInstance
variable {F : FTy → Type} [FloatOps F]

theorem slices_head : ∀ h : Fin 8, S1024x512.Slices ![0, 64 * h.val] S1024x64 := by decide

/-- Head `h`'s slab: columns 64 h … 64 h + 63. -/
def headSlab (h : Fin 8) (v : FVec F S1024x512 .f32) : FVec F S1024x64 .f32 :=
  extractStridedSlice S1024x64 ![0, 64 * h.val] v (slices_head h)

/-- The eight heads side by side, as the concatenation of the family of heads. -/
theorem allHeads_eq (v : FVec F S1024x512 .f32) :
    allHeads v = concatenate S1024x512 1 (List.ofFn fun n : Fin 8 => (⟨S1024x64, headOut (headSlab n v)⟩ : (s : Shape) × (s.Idx → F .f32)))
      concatenates_S1024x64_S1024x64_S1024x64_S1024x64_S1024x64_S1024x64_S1024x64_S1024x64_S1024x512_d1 := rfl

end AnyInstance

/-- Head `h`'s slab at (s, d) is the slab at (s, 64 h + d). -/
theorem headSlab_apply (h : Fin 8) (v : FVec Ideal S1024x512 .f32) (s : Fin 1024) (d : Fin 64) :
    headSlab h v (ix2 s d) = v (ix2 s (col h d)) :=
  extractStridedSlice_apply _ v (slices_head h) (ix2 s d) (ix2 s (col h d)) (fun a => by
    match a with
    | ⟨0, _⟩ => show s.val = 0 + s.val; omega
    | ⟨1, _⟩ => show h.val * 64 + d.val = 64 * h.val + d.val; omega)

/-- Entry (s, e) of the eight heads side by side: head e / 64 at (s, e mod 64). -/
theorem allHeads_apply (v : FVec Ideal S1024x512 .f32) (s : Fin 1024) (e : Fin 512) :
    allHeads v (ix2 s e) = headOut (headSlab ⟨e.val / 64, by have := e.isLt; omega⟩ v)
      (ix2 s (⟨e.val % 64, Nat.mod_lt _ (by norm_num)⟩ : Fin 64)) := by
  rw [allHeads_eq]
  exact concatenate_ofFn_apply (1 : Fin S1024x512.rank) (fun n : Fin 8 => headOut (headSlab n v)) _ rfl 64 rfl (ix2 s e)
    ⟨e.val / 64, by have := e.isLt; omega⟩ rfl (ix2 s (⟨e.val % 64, Nat.mod_lt _ (by norm_num)⟩ : Fin 64)) rfl
    (fun b hb => by
      match b with
      | ⟨0, _⟩ => rfl
      | ⟨1, _⟩ => exact absurd rfl hb)

/-! ## From the blocks to the array -/

variable (m : (ℓ : Loc nD τ sig) → Buf (Elt Ideal) ℓ) (ρ : Dev nD → PrngReg)

theorem hz : (![0, 0, 0] : Fin 3 → Nat) = fun _ => 0 := funext fun a => by fin_cases a <;> rfl

/-- Both windows' block at point t is batch t, whole. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The slab point t loads is batch t of the argument. -/
theorem slab_apply (c : Dev nD) (t : Fin cfg0.N) (s : Fin 1024) (e : Fin 512) :
    shapeCast S1024x512 (iblk m c 0 t) shapeCasts_S1x1024x512_S1024x512 (ix2 s e)
      = (V m c main_arg0 : S8x1024x512.Idx → EReal) (ix3 (⟨t.val, t.isLt⟩ : Fin 8) s e) := by
  obtain ⟨e0, e1, e2, -, -, -⟩ := idx_facts t
  refine (shapeCast_dropUnit_apply ![1024, 512] (iblk m c 0 t) shapeCasts_S1x1024x512_S1024x512 (ix2 s e)).trans ?_
  show V m c main_arg0 (((cfg0.win 0).blk t).view.emb (Fin.cons ⟨0, Nat.one_pos⟩ (ix2 s e))) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 1024 + 1 * s.val = s.val; omega
  | ⟨2, _⟩ => show win0_0.index t (2 : Fin 3) * 512 + 1 * e.val = e.val; omega

/-- WHAT POINT t WRITES BACK is batch t of the result function of the argument, when the argument is real. -/
theorem flushed_eq (c : Dev nD)
    (hfin : ∀ idx, ∃ r : ℝ, (V m c main_arg0 : S8x1024x512.Idx → EReal) idx = (r : EReal)) (t : Fin cfg0.N) :
    (dats m 0 c).flushed 1 t
      = ((cfg0.win 1).blk t).view.read (Elt Ideal) (result (V m c main_arg0 : S8x1024x512.Idx → EReal)) := by
  show (cfg0.win 1).cut (grid0.coords t) ((dats m 0 c).after 1 t) = _
  rw [after0_1, block_eq, View.canon_unit_zero hz]
  simp only [View.ld_unit_zero (S := S1x1024x512) hz]
  obtain ⟨-, -, -, e3, e4, e5⟩ := idx_facts t
  choose Xr hXr using hfin
  funext y
  have hy0 : (y 0).val < 1 := (y 0).isLt
  let tb : Fin 8 := ⟨t.val, t.isLt⟩
  let s : Fin 1024 := ⟨(y 1).val, (y 1).isLt⟩
  let e : Fin 512 := ⟨(y 2).val, (y 2).isLt⟩
  let h : Fin 8 := ⟨e.val / 64, by have := e.isLt; omega⟩
  let d : Fin 64 := ⟨e.val % 64, Nat.mod_lt _ (by norm_num)⟩
  show shapeCast S1x1024x512 (allHeads (F := Ideal) (shapeCast S1024x512 (iblk m c 0 t) shapeCasts_S1x1024x512_S1024x512))
      shapeCasts_S1024x512_S1x1024x512 y
    = result (V m c main_arg0 : S8x1024x512.Idx → EReal) (((cfg0.win 1).blk t).view.emb y)
  have hemb : ((cfg0.win 1).blk t).view.emb y = ix3 tb s e := by
    funext a; apply Fin.ext
    match a with
    | ⟨0, _⟩ => show win0_1.index t (0 : Fin 3) * 1 + 1 * (y 0).val = t.val; omega
    | ⟨1, _⟩ => show win0_1.index t (1 : Fin 3) * 1024 + 1 * (y 1).val = (y 1).val; omega
    | ⟨2, _⟩ => show win0_1.index t (2 : Fin 3) * 512 + 1 * (y 2).val = (y 2).val; omega
  rw [hemb]
  refine (shapeCast_addUnit_apply ![1024, 512] _ shapeCasts_S1024x512_S1x1024x512 y).trans ?_
  have hy : (fun a : Fin 2 => y a.succ) = ix2 s e := funext fun a => by
    match a with
    | ⟨0, _⟩ => rfl
    | ⟨1, _⟩ => rfl
  rw [hy, allHeads_apply]
  -- head h of the slab, over reals
  have hxh : ∀ (j : Fin 1024) (d' : Fin 64),
      headSlab (F := Ideal) h (shapeCast S1024x512 (iblk m c 0 t) shapeCasts_S1x1024x512_S1024x512) (ix2 j d')
        = (V m c main_arg0 : S8x1024x512.Idx → EReal) (ix3 tb j (col h d')) := fun j d' => by
    rw [headSlab_apply, slab_apply]
  rw [headOut_apply _ (fun j d' => Xr (ix3 tb j (col h d'))) (fun j d' => (hxh j d').trans (hXr _)) s d]
  simp only [hxh]
  rfl

/-- An index of the result array is in point t's block iff each coordinate is in the block's range. -/
theorem mem_blk (t : Fin cfg0.N) (i : S8x1024x512.Idx) :
    i ∈ ((cfg0.win 1).blk t).view.set ↔ ∀ a : Fin 3, win0_1.index t a * S1x1024x512.size a ≤ (i a).val
      ∧ (i a).val < win0_1.index t a * S1x1024x512.size a + S1x1024x512.size a := by
  show i ∈ ((View.whole main_v0).slice (win0_1.rect t)).set ↔ _
  rw [View.set_slice_whole, Rect.mem_set_unit]
  exact Iff.rfl

/-- THE RESULT ARRAY after the run: the result function of the argument (the eight batches tile it). -/
theorem final (c : Dev nD)
    (hfin : ∀ idx, ∃ r : ℝ, (V m c main_arg0 : S8x1024x512.Idx → EReal) idx = (r : EReal)) :
    (dats m 0 c).arrAt 1 cfg0.N = result (V m c main_arg0 : S8x1024x512.Idx → EReal) :=
  (dats m 0 c).arrAt_eq_of_cover 1 (result (V m c main_arg0 : S8x1024x512.Idx → EReal))
    (fun t _ => flushed_eq m c hfin t) fun i => by
      have h0 : (i 0).val < 8 := (i 0).isLt
      have h1 : (i 1).val < 1024 := (i 1).isLt
      have h2 : (i 2).val < 512 := (i 2).isLt
      refine ⟨⟨(i 0).val, h0⟩, flush0_1 _, ?_⟩
      obtain ⟨-, -, -, e3, e4, e5⟩ := idx_facts ⟨(i 0).val, h0⟩
      rw [mem_blk]
      intro a
      match a with
      | ⟨0, _⟩ =>
        show win0_1.index ⟨(i 0).val, h0⟩ (0 : Fin 3) * 1 ≤ (i 0).val ∧ (i 0).val < win0_1.index ⟨(i 0).val, h0⟩ (0 : Fin 3) * 1 + 1
        have e3' : win0_1.index ⟨(i 0).val, h0⟩ (0 : Fin 3) = (i 0).val := e3
        omega
      | ⟨1, _⟩ =>
        show win0_1.index ⟨(i 0).val, h0⟩ (1 : Fin 3) * 1024 ≤ (i 1).val ∧ (i 1).val < win0_1.index ⟨(i 0).val, h0⟩ (1 : Fin 3) * 1024 + 1024
        omega
      | ⟨2, _⟩ =>
        show win0_1.index ⟨(i 0).val, h0⟩ (2 : Fin 3) * 512 ≤ (i 2).val ∧ (i 2).val < win0_1.index ⟨(i 0).val, h0⟩ (2 : Fin 3) * 512 + 512
        omega

/-- THE KERNEL'S RUN at the ideal values, for a real argument: the result array ends at the result function of the
    argument, the argument unchanged. -/
theorem run (hfin : ∀ (c : Dev nD) idx, ∃ r : ℝ, (V m c main_arg0 : S8x1024x512.Idx → EReal) idx = (r : EReal)) :
    θ_run defs (onTc (τ := τ) (main (F := Ideal))) ⟨m, fun _ => 0, ρ⟩ fun r => ∀ c : Dev nD,
      r.2.mem ((c : Thread nD τ).loc main_v0) = result (m ((c : Thread nD τ).loc main_arg0) : S8x1024x512.Idx → EReal)
      ∧ r.2.mem ((c : Thread nD τ).loc main_arg0) = m ((c : Thread nD τ).loc main_arg0) :=
  (θ_run defs _ _).mono (fun r h c => ⟨((h c).1 1).trans (final m c (hfin c)),
      ((h c).1 0).trans (((dats m 0 c).arrAt_in 0 rfl _).trans ((A_eq m c 0).trans (V_main_arg0 m c)))⟩)
    (run_main m ρ)

end Cert.KernelIdeal.ArrayValue

end
-- ==== Proof.LibHostMax4.lean ====
/-
  The host's maximum along the last axis of a four-dimensional array, read at an index: at (p, q, r) it is the
  fold of max, from the starting value, over the last coordinate.
-/
import Idealize.ShloMosaic.PureOps.Ideal.Laws
import Idealize.ShloMosaic.PureOps.Reduce
import Idealize.ShloMosaic.Lib.ValueIdx

noncomputable section

namespace Cert.Lib.HostMax4

open Idealize.ShloMosaic Idealize.ShloMosaic.ValueIdx

/-- The host's maximum along the last axis of an `n0 × n1 × n2 × n3` array: at `(p, q, r)`, the fold of `max` from
    the starting value over the `n3` coordinates. -/
theorem hostLastMax4_apply {n0 n1 n2 n3 : ℕ} {φ : FTy} {u : Shape} (x : FVec Ideal ⟨4, ![n0, n1, n2, n3]⟩ φ)
    (init : u.Idx → Ideal φ)
    (h' : Shape.ReducesTo ⟨4, ![n0, n1, n2, n3]⟩ [3] ⟨3, ![n0, n1, n2]⟩)
    (h : Shape.Reduces ⟨4, ![n0, n1, n2, n3]⟩ [3] ⟨3, ![n0, n1, n2]⟩)
    (hu : 0 < u.numel) (p : Fin n0) (q : Fin n1) (r : Fin n2) :
    Host.reduce FloatOps.maximumf x init h' hu (ix3 p q r)
      = (Finset.univ : Finset (Fin n3)).fold max (init (Shape.Idx.first hu)) (fun k => x (ix4 p q r k)) := by
  refine (Host.reduce_eq_fold_single FloatOps.maximumf x init h' h hu (ix3 p q r)).trans ?_
  refine congrArg (fun f => Finset.fold max (init (Shape.Idx.first hu)) f (Finset.univ : Finset (Fin n3))) ?_
  funext k
  refine congrArg x ?_
  funext ax; apply Fin.ext
  match ax with
  | ⟨0, _⟩ => rfl
  | ⟨1, _⟩ => rfl
  | ⟨2, _⟩ => rfl
  | ⟨3, _⟩ => rfl

end Cert.Lib.HostMax4

end
-- ==== Proof.RefValue.lean ====
/-
  The reference at the ideal values, entry by entry: it is the result function of its argument.

  The reference splits the 512 columns into eight heads of 64, takes the first eight columns of each head as
  angles, and for every pair of rows (i, j) of a head multiplies, starting from one, the cosines of the eight half
  differences: the overlap.  The absolute overlaps are the scores; each row of scores is exponentiated relative to
  its maximum and divided by its sum, and the result multiplies the head's 64 columns.  Reading the operations one at
  a time at an entry gives attention along a row, which is the result function by definition.
-/
import proofs.«108557_j65481071408018_2_alg».proof.Proof.Gen.ReferenceIdeal.Read
import proofs.«108557_j65481071408018_2_alg».proof.Proof.Overlap
import proofs.«108557_j65481071408018_2_alg».proof.Proof.LibHostMax4
import Idealize.ShloMosaic.Lib.ValueIdx

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Overlap

variable (x0 : (⟨S8x1024x512, .f32⟩ : BufTy).Contents (Elt Ideal))

/-! ## The heads' view of the argument -/

/-- Entry (b, h, s, d) of the heads' view is the argument at (b, s, 64 h + d). -/
theorem heads_at (b h : Fin 8) (s : Fin 1024) (d : Fin 64) :
    val_main_v1 (F := Ideal) x0 (ix4 b h s d) = x0 (ix3 b s (col h d)) := by
  rw [val_main_v1_apply, val_main_v0_apply]
  refine congrArg x0 (funext fun ax => Fin.ext ?_)
  have hb := b.isLt; have hh := h.isLt; have hs := s.isLt; have hd := d.isLt
  match ax with
  | ⟨0, _⟩ => show (((b.val * 1024 + s.val) * 8 + h.val) * 64 + d.val) / 524288 = b.val; omega
  | ⟨1, _⟩ => show (((b.val * 1024 + s.val) * 8 + h.val) * 64 + d.val) / 512 % 1024 = s.val; omega
  | ⟨2, _⟩ => show (((b.val * 1024 + s.val) * 8 + h.val) * 64 + d.val) % 512 = h.val * 64 + d.val; omega

/-- The angles: the first eight columns of every head. -/
theorem angles_at (b h : Fin 8) (s : Fin 1024) (w : Fin 8) :
    val_main_v2 (F := Ideal) x0 (ix4 b h s w) = x0 (ix3 b s (col h (wcol w))) := by
  rw [val_main_v2_apply]
  refine (congrArg (val_main_v1 (F := Ideal) x0) (funext fun ax => Fin.ext ?_)).trans (heads_at x0 b h s (wcol w))
  match ax with
  | ⟨0, _⟩ => rfl
  | ⟨1, _⟩ => rfl
  | ⟨2, _⟩ => rfl
  | ⟨3, _⟩ => rfl

/-! ## The eight wires: row i's angle against row j's -/

/-- Wire 0: row i's angle spread over the columns j. -/
theorem rowAngle_0 (b h : Fin 8) (i j : Fin 1024) :
    val_main_v10 (F := Ideal) x0 (ix4 b h i j) = x0 (ix3 b i (col h (wcol 0))) := by
  rw [val_main_v10_apply, val_main_v6_apply, val_main_v5_apply, val_main_v4_apply]
  refine (congrArg (val_main_v2 (F := Ideal) x0) (funext fun ax => Fin.ext ?_)).trans (angles_at x0 b h i 0)
  have hb := b.isLt; have hh := h.isLt; have hi := i.isLt
  match ax with
  | ⟨0, _⟩ => show ((b.val * 8 + h.val) * 1024 + i.val) / 8192 = b.val; omega
  | ⟨1, _⟩ => show ((b.val * 8 + h.val) * 1024 + i.val) / 1024 % 8 = h.val; omega
  | ⟨2, _⟩ => show ((b.val * 8 + h.val) * 1024 + i.val) / 1 % 1024 = i.val; omega
  | ⟨3, _⟩ => rfl

/-- Wire 0: row j's angle spread over the rows i. -/
theorem colAngle_0 (b h : Fin 8) (i j : Fin 1024) :
    val_main_v11 (F := Ideal) x0 (ix4 b h i j) = x0 (ix3 b j (col h (wcol 0))) := by
  rw [val_main_v11_apply, val_main_v9_apply, val_main_v8_apply, val_main_v7_apply]
  refine (congrArg (val_main_v2 (F := Ideal) x0) (funext fun ax => Fin.ext ?_)).trans (angles_at x0 b h j 0)
  have hb := b.isLt; have hh := h.isLt; have hj := j.isLt
  match ax with
  | ⟨0, _⟩ => show ((b.val * 8 + h.val) * 1024 + j.val) / 8192 = b.val; omega
  | ⟨1, _⟩ => show ((b.val * 8 + h.val) * 1024 + j.val) / 1024 % 8 = h.val; omega
  | ⟨2, _⟩ => show ((b.val * 8 + h.val) * 1024 + j.val) / 1 % 1024 = j.val; omega
  | ⟨3, _⟩ => rfl

/-- Wire 0's factor: the cosine of half the difference of the two rows' angles. -/
theorem wire_0 (b h : Fin 8) (i j : Fin 1024) :
    val_main_v15 (F := Ideal) x0 (ix4 b h i j)
      = wire (x0 (ix3 b i (col h (wcol 0)))) (x0 (ix3 b j (col h (wcol 0)))) := by
  rw [val_main_v15_apply, val_main_v14_apply, val_main_v12_apply, rowAngle_0, colAngle_0,
    val_main_v13_apply, val_main_cst_0_apply]
  rfl

/-- Wire 1: row i's angle spread over the columns j. -/
theorem rowAngle_1 (b h : Fin 8) (i j : Fin 1024) :
    val_main_v23 (F := Ideal) x0 (ix4 b h i j) = x0 (ix3 b i (col h (wcol 1))) := by
  rw [val_main_v23_apply, val_main_v19_apply, val_main_v18_apply, val_main_v17_apply]
  refine (congrArg (val_main_v2 (F := Ideal) x0) (funext fun ax => Fin.ext ?_)).trans (angles_at x0 b h i 1)
  have hb := b.isLt; have hh := h.isLt; have hi := i.isLt
  match ax with
  | ⟨0, _⟩ => show ((b.val * 8 + h.val) * 1024 + i.val) / 8192 = b.val; omega
  | ⟨1, _⟩ => show ((b.val * 8 + h.val) * 1024 + i.val) / 1024 % 8 = h.val; omega
  | ⟨2, _⟩ => show ((b.val * 8 + h.val) * 1024 + i.val) / 1 % 1024 = i.val; omega
  | ⟨3, _⟩ => rfl

/-- Wire 1: row j's angle spread over the rows i. -/
theorem colAngle_1 (b h : Fin 8) (i j : Fin 1024) :
    val_main_v24 (F := Ideal) x0 (ix4 b h i j) = x0 (ix3 b j (col h (wcol 1))) := by
  rw [val_main_v24_apply, val_main_v22_apply, val_main_v21_apply, val_main_v20_apply]
  refine (congrArg (val_main_v2 (F := Ideal) x0) (funext fun ax => Fin.ext ?_)).trans (angles_at x0 b h j 1)
  have hb := b.isLt; have hh := h.isLt; have hj := j.isLt
  match ax with
  | ⟨0, _⟩ => show ((b.val * 8 + h.val) * 1024 + j.val) / 8192 = b.val; omega
  | ⟨1, _⟩ => show ((b.val * 8 + h.val) * 1024 + j.val) / 1024 % 8 = h.val; omega
  | ⟨2, _⟩ => show ((b.val * 8 + h.val) * 1024 + j.val) / 1 % 1024 = j.val; omega
  | ⟨3, _⟩ => rfl

/-- Wire 1's factor: the cosine of half the difference of the two rows' angles. -/
theorem wire_1 (b h : Fin 8) (i j : Fin 1024) :
    val_main_v28 (F := Ideal) x0 (ix4 b h i j)
      = wire (x0 (ix3 b i (col h (wcol 1)))) (x0 (ix3 b j (col h (wcol 1)))) := by
  rw [val_main_v28_apply, val_main_v27_apply, val_main_v25_apply, rowAngle_1, colAngle_1,
    val_main_v26_apply, val_main_cst_1_apply]
  rfl

/-- Wire 2: row i's angle spread over the columns j. -/
theorem rowAngle_2 (b h : Fin 8) (i j : Fin 1024) :
    val_main_v36 (F := Ideal) x0 (ix4 b h i j) = x0 (ix3 b i (col h (wcol 2))) := by
  rw [val_main_v36_apply, val_main_v32_apply, val_main_v31_apply, val_main_v30_apply]
  refine (congrArg (val_main_v2 (F := Ideal) x0) (funext fun ax => Fin.ext ?_)).trans (angles_at x0 b h i 2)
  have hb := b.isLt; have hh := h.isLt; have hi := i.isLt
  match ax with
  | ⟨0, _⟩ => show ((b.val * 8 + h.val) * 1024 + i.val) / 8192 = b.val; omega
  | ⟨1, _⟩ => show ((b.val * 8 + h.val) * 1024 + i.val) / 1024 % 8 = h.val; omega
  | ⟨2, _⟩ => show ((b.val * 8 + h.val) * 1024 + i.val) / 1 % 1024 = i.val; omega
  | ⟨3, _⟩ => rfl

/-- Wire 2: row j's angle spread over the rows i. -/
theorem colAngle_2 (b h : Fin 8) (i j : Fin 1024) :
    val_main_v37 (F := Ideal) x0 (ix4 b h i j) = x0 (ix3 b j (col h (wcol 2))) := by
  rw [val_main_v37_apply, val_main_v35_apply, val_main_v34_apply, val_main_v33_apply]
  refine (congrArg (val_main_v2 (F := Ideal) x0) (funext fun ax => Fin.ext ?_)).trans (angles_at x0 b h j 2)
  have hb := b.isLt; have hh := h.isLt; have hj := j.isLt
  match ax with
  | ⟨0, _⟩ => show ((b.val * 8 + h.val) * 1024 + j.val) / 8192 = b.val; omega
  | ⟨1, _⟩ => show ((b.val * 8 + h.val) * 1024 + j.val) / 1024 % 8 = h.val; omega
  | ⟨2, _⟩ => show ((b.val * 8 + h.val) * 1024 + j.val) / 1 % 1024 = j.val; omega
  | ⟨3, _⟩ => rfl

/-- Wire 2's factor: the cosine of half the difference of the two rows' angles. -/
theorem wire_2 (b h : Fin 8) (i j : Fin 1024) :
    val_main_v41 (F := Ideal) x0 (ix4 b h i j)
      = wire (x0 (ix3 b i (col h (wcol 2)))) (x0 (ix3 b j (col h (wcol 2)))) := by
  rw [val_main_v41_apply, val_main_v40_apply, val_main_v38_apply, rowAngle_2, colAngle_2,
    val_main_v39_apply, val_main_cst_2_apply]
  rfl

/-- Wire 3: row i's angle spread over the columns j. -/
theorem rowAngle_3 (b h : Fin 8) (i j : Fin 1024) :
    val_main_v49 (F := Ideal) x0 (ix4 b h i j) = x0 (ix3 b i (col h (wcol 3))) := by
  rw [val_main_v49_apply, val_main_v45_apply, val_main_v44_apply, val_main_v43_apply]
  refine (congrArg (val_main_v2 (F := Ideal) x0) (funext fun ax => Fin.ext ?_)).trans (angles_at x0 b h i 3)
  have hb := b.isLt; have hh := h.isLt; have hi := i.isLt
  match ax with
  | ⟨0, _⟩ => show ((b.val * 8 + h.val) * 1024 + i.val) / 8192 = b.val; omega
  | ⟨1, _⟩ => show ((b.val * 8 + h.val) * 1024 + i.val) / 1024 % 8 = h.val; omega
  | ⟨2, _⟩ => show ((b.val * 8 + h.val) * 1024 + i.val) / 1 % 1024 = i.val; omega
  | ⟨3, _⟩ => rfl

/-- Wire 3: row j's angle spread over the rows i. -/
theorem colAngle_3 (b h : Fin 8) (i j : Fin 1024) :
    val_main_v50 (F := Ideal) x0 (ix4 b h i j) = x0 (ix3 b j (col h (wcol 3))) := by
  rw [val_main_v50_apply, val_main_v48_apply, val_main_v47_apply, val_main_v46_apply]
  refine (congrArg (val_main_v2 (F := Ideal) x0) (funext fun ax => Fin.ext ?_)).trans (angles_at x0 b h j 3)
  have hb := b.isLt; have hh := h.isLt; have hj := j.isLt
  match ax with
  | ⟨0, _⟩ => show ((b.val * 8 + h.val) * 1024 + j.val) / 8192 = b.val; omega
  | ⟨1, _⟩ => show ((b.val * 8 + h.val) * 1024 + j.val) / 1024 % 8 = h.val; omega
  | ⟨2, _⟩ => show ((b.val * 8 + h.val) * 1024 + j.val) / 1 % 1024 = j.val; omega
  | ⟨3, _⟩ => rfl

/-- Wire 3's factor: the cosine of half the difference of the two rows' angles. -/
theorem wire_3 (b h : Fin 8) (i j : Fin 1024) :
    val_main_v54 (F := Ideal) x0 (ix4 b h i j)
      = wire (x0 (ix3 b i (col h (wcol 3)))) (x0 (ix3 b j (col h (wcol 3)))) := by
  rw [val_main_v54_apply, val_main_v53_apply, val_main_v51_apply, rowAngle_3, colAngle_3,
    val_main_v52_apply, val_main_cst_3_apply]
  rfl

/-- Wire 4: row i's angle spread over the columns j. -/
theorem rowAngle_4 (b h : Fin 8) (i j : Fin 1024) :
    val_main_v62 (F := Ideal) x0 (ix4 b h i j) = x0 (ix3 b i (col h (wcol 4))) := by
  rw [val_main_v62_apply, val_main_v58_apply, val_main_v57_apply, val_main_v56_apply]
  refine (congrArg (val_main_v2 (F := Ideal) x0) (funext fun ax => Fin.ext ?_)).trans (angles_at x0 b h i 4)
  have hb := b.isLt; have hh := h.isLt; have hi := i.isLt
  match ax with
  | ⟨0, _⟩ => show ((b.val * 8 + h.val) * 1024 + i.val) / 8192 = b.val; omega
  | ⟨1, _⟩ => show ((b.val * 8 + h.val) * 1024 + i.val) / 1024 % 8 = h.val; omega
  | ⟨2, _⟩ => show ((b.val * 8 + h.val) * 1024 + i.val) / 1 % 1024 = i.val; omega
  | ⟨3, _⟩ => rfl

/-- Wire 4: row j's angle spread over the rows i. -/
theorem colAngle_4 (b h : Fin 8) (i j : Fin 1024) :
    val_main_v63 (F := Ideal) x0 (ix4 b h i j) = x0 (ix3 b j (col h (wcol 4))) := by
  rw [val_main_v63_apply, val_main_v61_apply, val_main_v60_apply, val_main_v59_apply]
  refine (congrArg (val_main_v2 (F := Ideal) x0) (funext fun ax => Fin.ext ?_)).trans (angles_at x0 b h j 4)
  have hb := b.isLt; have hh := h.isLt; have hj := j.isLt
  match ax with
  | ⟨0, _⟩ => show ((b.val * 8 + h.val) * 1024 + j.val) / 8192 = b.val; omega
  | ⟨1, _⟩ => show ((b.val * 8 + h.val) * 1024 + j.val) / 1024 % 8 = h.val; omega
  | ⟨2, _⟩ => show ((b.val * 8 + h.val) * 1024 + j.val) / 1 % 1024 = j.val; omega
  | ⟨3, _⟩ => rfl

/-- Wire 4's factor: the cosine of half the difference of the two rows' angles. -/
theorem wire_4 (b h : Fin 8) (i j : Fin 1024) :
    val_main_v67 (F := Ideal) x0 (ix4 b h i j)
      = wire (x0 (ix3 b i (col h (wcol 4)))) (x0 (ix3 b j (col h (wcol 4)))) := by
  rw [val_main_v67_apply, val_main_v66_apply, val_main_v64_apply, rowAngle_4, colAngle_4,
    val_main_v65_apply, val_main_cst_4_apply]
  rfl

/-- Wire 5: row i's angle spread over the columns j. -/
theorem rowAngle_5 (b h : Fin 8) (i j : Fin 1024) :
    val_main_v75 (F := Ideal) x0 (ix4 b h i j) = x0 (ix3 b i (col h (wcol 5))) := by
  rw [val_main_v75_apply, val_main_v71_apply, val_main_v70_apply, val_main_v69_apply]
  refine (congrArg (val_main_v2 (F := Ideal) x0) (funext fun ax => Fin.ext ?_)).trans (angles_at x0 b h i 5)
  have hb := b.isLt; have hh := h.isLt; have hi := i.isLt
  match ax with
  | ⟨0, _⟩ => show ((b.val * 8 + h.val) * 1024 + i.val) / 8192 = b.val; omega
  | ⟨1, _⟩ => show ((b.val * 8 + h.val) * 1024 + i.val) / 1024 % 8 = h.val; omega
  | ⟨2, _⟩ => show ((b.val * 8 + h.val) * 1024 + i.val) / 1 % 1024 = i.val; omega
  | ⟨3, _⟩ => rfl

/-- Wire 5: row j's angle spread over the rows i. -/
theorem colAngle_5 (b h : Fin 8) (i j : Fin 1024) :
    val_main_v76 (F := Ideal) x0 (ix4 b h i j) = x0 (ix3 b j (col h (wcol 5))) := by
  rw [val_main_v76_apply, val_main_v74_apply, val_main_v73_apply, val_main_v72_apply]
  refine (congrArg (val_main_v2 (F := Ideal) x0) (funext fun ax => Fin.ext ?_)).trans (angles_at x0 b h j 5)
  have hb := b.isLt; have hh := h.isLt; have hj := j.isLt
  match ax with
  | ⟨0, _⟩ => show ((b.val * 8 + h.val) * 1024 + j.val) / 8192 = b.val; omega
  | ⟨1, _⟩ => show ((b.val * 8 + h.val) * 1024 + j.val) / 1024 % 8 = h.val; omega
  | ⟨2, _⟩ => show ((b.val * 8 + h.val) * 1024 + j.val) / 1 % 1024 = j.val; omega
  | ⟨3, _⟩ => rfl

/-- Wire 5's factor: the cosine of half the difference of the two rows' angles. -/
theorem wire_5 (b h : Fin 8) (i j : Fin 1024) :
    val_main_v80 (F := Ideal) x0 (ix4 b h i j)
      = wire (x0 (ix3 b i (col h (wcol 5)))) (x0 (ix3 b j (col h (wcol 5)))) := by
  rw [val_main_v80_apply, val_main_v79_apply, val_main_v77_apply, rowAngle_5, colAngle_5,
    val_main_v78_apply, val_main_cst_5_apply]
  rfl

/-- Wire 6: row i's angle spread over the columns j. -/
theorem rowAngle_6 (b h : Fin 8) (i j : Fin 1024) :
    val_main_v88 (F := Ideal) x0 (ix4 b h i j) = x0 (ix3 b i (col h (wcol 6))) := by
  rw [val_main_v88_apply, val_main_v84_apply, val_main_v83_apply, val_main_v82_apply]
  refine (congrArg (val_main_v2 (F := Ideal) x0) (funext fun ax => Fin.ext ?_)).trans (angles_at x0 b h i 6)
  have hb := b.isLt; have hh := h.isLt; have hi := i.isLt
  match ax with
  | ⟨0, _⟩ => show ((b.val * 8 + h.val) * 1024 + i.val) / 8192 = b.val; omega
  | ⟨1, _⟩ => show ((b.val * 8 + h.val) * 1024 + i.val) / 1024 % 8 = h.val; omega
  | ⟨2, _⟩ => show ((b.val * 8 + h.val) * 1024 + i.val) / 1 % 1024 = i.val; omega
  | ⟨3, _⟩ => rfl

/-- Wire 6: row j's angle spread over the rows i. -/
theorem colAngle_6 (b h : Fin 8) (i j : Fin 1024) :
    val_main_v89 (F := Ideal) x0 (ix4 b h i j) = x0 (ix3 b j (col h (wcol 6))) := by
  rw [val_main_v89_apply, val_main_v87_apply, val_main_v86_apply, val_main_v85_apply]
  refine (congrArg (val_main_v2 (F := Ideal) x0) (funext fun ax => Fin.ext ?_)).trans (angles_at x0 b h j 6)
  have hb := b.isLt; have hh := h.isLt; have hj := j.isLt
  match ax with
  | ⟨0, _⟩ => show ((b.val * 8 + h.val) * 1024 + j.val) / 8192 = b.val; omega
  | ⟨1, _⟩ => show ((b.val * 8 + h.val) * 1024 + j.val) / 1024 % 8 = h.val; omega
  | ⟨2, _⟩ => show ((b.val * 8 + h.val) * 1024 + j.val) / 1 % 1024 = j.val; omega
  | ⟨3, _⟩ => rfl

/-- Wire 6's factor: the cosine of half the difference of the two rows' angles. -/
theorem wire_6 (b h : Fin 8) (i j : Fin 1024) :
    val_main_v93 (F := Ideal) x0 (ix4 b h i j)
      = wire (x0 (ix3 b i (col h (wcol 6)))) (x0 (ix3 b j (col h (wcol 6)))) := by
  rw [val_main_v93_apply, val_main_v92_apply, val_main_v90_apply, rowAngle_6, colAngle_6,
    val_main_v91_apply, val_main_cst_6_apply]
  rfl

/-- Wire 7: row i's angle spread over the columns j. -/
theorem rowAngle_7 (b h : Fin 8) (i j : Fin 1024) :
    val_main_v101 (F := Ideal) x0 (ix4 b h i j) = x0 (ix3 b i (col h (wcol 7))) := by
  rw [val_main_v101_apply, val_main_v97_apply, val_main_v96_apply, val_main_v95_apply]
  refine (congrArg (val_main_v2 (F := Ideal) x0) (funext fun ax => Fin.ext ?_)).trans (angles_at x0 b h i 7)
  have hb := b.isLt; have hh := h.isLt; have hi := i.isLt
  match ax with
  | ⟨0, _⟩ => show ((b.val * 8 + h.val) * 1024 + i.val) / 8192 = b.val; omega
  | ⟨1, _⟩ => show ((b.val * 8 + h.val) * 1024 + i.val) / 1024 % 8 = h.val; omega
  | ⟨2, _⟩ => show ((b.val * 8 + h.val) * 1024 + i.val) / 1 % 1024 = i.val; omega
  | ⟨3, _⟩ => rfl

/-- Wire 7: row j's angle spread over the rows i. -/
theorem colAngle_7 (b h : Fin 8) (i j : Fin 1024) :
    val_main_v102 (F := Ideal) x0 (ix4 b h i j) = x0 (ix3 b j (col h (wcol 7))) := by
  rw [val_main_v102_apply, val_main_v100_apply, val_main_v99_apply, val_main_v98_apply]
  refine (congrArg (val_main_v2 (F := Ideal) x0) (funext fun ax => Fin.ext ?_)).trans (angles_at x0 b h j 7)
  have hb := b.isLt; have hh := h.isLt; have hj := j.isLt
  match ax with
  | ⟨0, _⟩ => show ((b.val * 8 + h.val) * 1024 + j.val) / 8192 = b.val; omega
  | ⟨1, _⟩ => show ((b.val * 8 + h.val) * 1024 + j.val) / 1024 % 8 = h.val; omega
  | ⟨2, _⟩ => show ((b.val * 8 + h.val) * 1024 + j.val) / 1 % 1024 = j.val; omega
  | ⟨3, _⟩ => rfl

/-- Wire 7's factor: the cosine of half the difference of the two rows' angles. -/
theorem wire_7 (b h : Fin 8) (i j : Fin 1024) :
    val_main_v106 (F := Ideal) x0 (ix4 b h i j)
      = wire (x0 (ix3 b i (col h (wcol 7)))) (x0 (ix3 b j (col h (wcol 7)))) := by
  rw [val_main_v106_apply, val_main_v105_apply, val_main_v103_apply, rowAngle_7, colAngle_7,
    val_main_v104_apply, val_main_cst_7_apply]
  rfl

/-! ## Scores, softmax and the weighted sum -/

/-- The product of the eight wires' factors, from one: the overlap of rows i and j. -/
theorem overlap_at (b h : Fin 8) (i j : Fin 1024) :
    val_main_v107 (F := Ideal) x0 (ix4 b h i j) = overlap (rowOf x0 b h i) (rowOf x0 b h j) := by
  rw [val_main_v107_apply, val_main_v94_apply, val_main_v81_apply, val_main_v68_apply, val_main_v55_apply,
    val_main_v42_apply, val_main_v29_apply, val_main_v16_apply, wire_0, wire_1, wire_2, wire_3, wire_4, wire_5,
    wire_6, wire_7, val_main_v3_apply, val_main_cst_apply]
  rfl

/-- The scores: the absolute overlaps. -/
theorem score_at (b h : Fin 8) (i j : Fin 1024) :
    val_main_v108 (F := Ideal) x0 (ix4 b h i j) = absE (overlap (rowOf x0 b h i) (rowOf x0 b h j)) := by
  rw [val_main_v108_apply, overlap_at]
  rfl

/-- The row maxima (the further maximum with −∞ changes nothing). -/
theorem max_at (b h : Fin 8) (i : Fin 1024) :
    val_main_v111 (F := Ideal) x0 (ix3 b h i) = rowMax (fun k => val_main_v108 (F := Ideal) x0 (ix4 b h i k)) := by
  rw [val_main_v111_apply, val_main_v110_apply, val_main_cst_9_apply]
  show max (Ideal.ofBits .f32 0xFF800000#32) (val_main_v109 (F := Ideal) x0 (ix3 b h i)) = _
  rw [max_ninf]
  unfold val_main_v109
  exact Cert.Lib.HostMax4.hostLastMax4_apply (val_main_v108 (F := Ideal) x0) (val_main_cst_8 (F := Ideal))
    reducesTo_S8x8x1024x1024_S8x8x1024_d3 (by decide) h_S_ b h i

/-- The exponentials relative to the row maximum. -/
theorem exp_at (b h : Fin 8) (i j : Fin 1024) :
    val_main_v115 (F := Ideal) x0 (ix4 b h i j)
      = Ideal.exp (val_main_v108 (F := Ideal) x0 (ix4 b h i j) - rowMax (fun k => val_main_v108 (F := Ideal) x0 (ix4 b h i k))) := by
  rw [val_main_v115_apply, val_main_v114_apply, val_main_v113_apply, val_main_v112_apply]
  have e : idx_main_v112 (idx_main_v113 (ix4 b h i j)) = ix3 b h i := funext fun ax => Fin.ext (by
    match ax with
    | ⟨0, _⟩ => rfl
    | ⟨1, _⟩ => rfl
    | ⟨2, _⟩ => rfl)
  rw [e, max_at]
  rfl

/-- The row sums of the exponentials. -/
theorem sum_at (b h : Fin 8) (i : Fin 1024) :
    val_main_v116 (F := Ideal) x0 (ix3 b h i) = ∑ k : Fin 1024, val_main_v115 (F := Ideal) x0 (ix4 b h i k) := by
  rw [val_main_v116_apply, val_main_cst_10_apply]
  show Ideal.ofBits .f32 0x00000000#32 + _ = _
  rw [Ideal.ofBits_zero_f32, zero_add]
  refine Finset.sum_congr rfl fun k _ => congrArg (val_main_v115 (F := Ideal) x0) (funext fun ax => Fin.ext (by
    match ax with
    | ⟨0, _⟩ => rfl
    | ⟨1, _⟩ => rfl
    | ⟨2, _⟩ => rfl
    | ⟨3, _⟩ => rfl))

/-- The attention weights. -/
theorem weight_at (b h : Fin 8) (i j : Fin 1024) :
    val_main_v119 (F := Ideal) x0 (ix4 b h i j)
      = Ideal.div (val_main_v115 (F := Ideal) x0 (ix4 b h i j)) (∑ k : Fin 1024, val_main_v115 (F := Ideal) x0 (ix4 b h i k)) := by
  rw [val_main_v119_apply, val_main_v118_apply, val_main_v117_apply]
  have e : idx_main_v117 (idx_main_v118 (ix4 b h i j)) = ix3 b h i := funext fun ax => Fin.ext (by
    match ax with
    | ⟨0, _⟩ => rfl
    | ⟨1, _⟩ => rfl
    | ⟨2, _⟩ => rfl)
  rw [e, sum_at]
  rfl

/-- The weighted sums over the positions. -/
theorem out_at (b h : Fin 8) (i : Fin 1024) (d : Fin 64) :
    val_main_v120 (F := Ideal) x0 (ix4 b h i d)
      = ∑ k : Fin 1024, val_main_v119 (F := Ideal) x0 (ix4 b h i k) * val_main_v1 (F := Ideal) x0 (ix4 b h k d) := by
  rw [val_main_v120_apply]
  refine Finset.sum_congr rfl fun k _ => ?_
  have el : lidx_main_v120 (ix4 b h i d) k = ix4 b h i k := funext fun ax => Fin.ext (by
    match ax with
    | ⟨0, _⟩ => rfl
    | ⟨1, _⟩ => rfl
    | ⟨2, _⟩ => rfl
    | ⟨3, _⟩ => rfl)
  have er : ridx_main_v120 (ix4 b h i d) k = ix4 b h k d := funext fun ax => Fin.ext (by
    match ax with
    | ⟨0, _⟩ => rfl
    | ⟨1, _⟩ => rfl
    | ⟨2, _⟩ => rfl
    | ⟨3, _⟩ => rfl)
  rw [el, er]

/-- THE REFERENCE'S RESULT is the result function of its argument. -/
theorem result_eq : val_main_v122 (F := Ideal) x0 = result x0 := by
  funext idx
  have h0 : (idx 0).val < 8 := (idx 0).isLt
  have h1 : (idx 1).val < 1024 := (idx 1).isLt
  have h2 : (idx 2).val < 512 := (idx 2).isLt
  rw [val_main_v122_apply, val_main_v121_apply]
  have e : idx_main_v121 (idx_main_v122 idx)
      = ix4 (⟨(idx 0).val, h0⟩ : Fin 8) (⟨(idx 2).val / 64, by omega⟩ : Fin 8) (⟨(idx 1).val, h1⟩ : Fin 1024)
          (⟨(idx 2).val % 64, Nat.mod_lt _ (by norm_num)⟩ : Fin 64) := funext fun ax => Fin.ext (by
    match ax with
    | ⟨0, _⟩ => show (((idx 0).val * 1024 + (idx 1).val) * 512 + (idx 2).val) / 524288 = (idx 0).val; omega
    | ⟨1, _⟩ => show (((idx 0).val * 1024 + (idx 1).val) * 512 + (idx 2).val) / 64 % 8 = (idx 2).val / 64; omega
    | ⟨2, _⟩ => show (((idx 0).val * 1024 + (idx 1).val) * 512 + (idx 2).val) / 512 % 1024 = (idx 1).val; omega
    | ⟨3, _⟩ => show (((idx 0).val * 1024 + (idx 1).val) * 512 + (idx 2).val) % 64 = (idx 2).val % 64; omega)
  rw [e, out_at]
  unfold result attention attend
  simp only [weight_at, exp_at, score_at, heads_at]
  rfl

end Cert.ReferenceIdeal.RefValue

end
-- ==== Proof.LibRealEntries.lean ====
/-
  General facts on the extended reals: an entry that passes the finiteness test is a real number.

  The finiteness test of a float entry z is  |z| < +∞,  with |z| = max z (−z) and +∞ the f32 word 0x7F800000.  The two
  infinities fail it (|±∞| = +∞), so an entry that passes is the coercion of a real number.
-/
import Idealize.ShloMosaic.PureOps.Ideal

noncomputable section

namespace Cert.Finite

open Idealize.ShloMosaic

/-- The word of +∞ denotes the top element. -/
theorem ofBits_pinf : Ideal.ofBits .f32 0x7F800000#32 = (⊤ : EReal) := by
  simp [Ideal.ofBits, Ideal.ieee]

/-- An extended real whose absolute value is below +∞ is a real number. -/
theorem real_of_abs_lt_top (z : EReal) (h : max z (-z) < (⊤ : EReal)) : ∃ r : ℝ, z = (r : EReal) := by
  induction z using EReal.rec with
  | bot => simp at h
  | coe r => exact ⟨r, rfl⟩
  | top => simp at h

/-- An extended real that passes the ordered comparison  |z| < +∞  (the comparison's bit is one) is a real number. -/
theorem real_of_test (z : EReal)
    (h : Ideal.cmp .olt (max z (-z)) (Ideal.ofBits .f32 0x7F800000#32) = 1#1) : ∃ r : ℝ, z = (r : EReal) := by
  refine real_of_abs_lt_top z ?_
  rw [← ofBits_pinf]
  by_contra hn
  have h0 : Ideal.cmp .olt (max z (-z)) (Ideal.ofBits .f32 0x7F800000#32) = 0#1 := by
    show BitVec.ofBool (decide (max z (-z) < Ideal.ofBits .f32 0x7F800000#32)) = 0#1
    rw [decide_eq_false hn]; rfl
  rw [h0] at h
  exact absurd h (by decide)

end Cert.Finite

end
-- ==== Proof.Finite.lean ====
/-
  From the precondition to real numbers: an array whose every entry has absolute value below +∞ holds real numbers.
-/
import proofs.«108557_j65481071408018_2_alg».proof.Pre_finite_inputs
import proofs.«108557_j65481071408018_2_alg».proof.Proof.LibRealEntries
import Idealize.ShloMosaic.Lib.ReduceAll
import Idealize.ShloMosaic.Lib.ValueIdx
import Idealize.ShloMosaic.PureOps.Ideal

noncomputable section

namespace Cert.Finite

open Idealize.ShloMosaic

instance : Subsingleton Cert.Pre_finite_inputs.S_.Idx := ⟨fun a b => funext fun d => d.elim0⟩

variable [Cert.Pre_finite_inputs.Facts]

/-- Under the precondition (the conjunction over all entries of the test |x| < +∞ is true) every entry of the
    argument is a real number. -/
theorem real_of_pre (x : FVec Ideal Cert.Pre_finite_inputs.S8x1024x512 .f32)
    (h : Cert.Pre_finite_inputs.fn (F := Ideal) x = fun _ => 1#1) (i : Cert.Pre_finite_inputs.S8x1024x512.Idx) :
    ∃ r : ℝ, x i = (r : EReal) := by
  have h0 := congrFun h ValueIdx.ix0
  dsimp only [Cert.Pre_finite_inputs.fn] at h0
  have hi := Host.reduce_andi_all _ _ _ _ _ h0 i
  exact real_of_test (x i) hi

end Cert.Finite

end
-- ==== Proof.lean ====
/-
  Eight heads of attention with overlap scores, computed two ways, are one function of a real argument.

  For every batch and head the rows carry eight angles (the head's first eight columns).  The reference scores rows
  i and j by the absolute value of  ∏_w cos ((a_w − b_w)/2)  over the eight wires.  The kernel instead builds, per row,
  the 256 products of cos (a_w/2) or sin (a_w/2) over the wires, and scores rows i and j by the absolute value of the
  inner product of their 256 features; wire by wire that inner product picks up the factor
  cos (a_w/2) cos (b_w/2) + sin (a_w/2) sin (b_w/2) = cos ((a_w − b_w)/2),  so the two scores agree for real angles.
  From the scores on, both sides do the same thing entry by entry: exponentiate each row relative to its maximum,
  divide by the row's sum, and take the weighted sum of the head's 64 columns.  A change of float format is the
  identity on the extended reals, and the order of a finite sum does not matter there.

  The precondition (every entry of the argument has absolute value below +∞) is what makes the angles real numbers,
  and it is used: the wire-by-wire step distributes a product over a sum.

  The frames are the generated ones; no operation was rewritten on the way to the idealized kernel.
-/
import proofs.«108557_j65481071408018_2_alg».proof.Defs
import proofs.«108557_j65481071408018_2_alg».proof.Proof.Gen.Kernel
import proofs.«108557_j65481071408018_2_alg».proof.Proof.Gen.Kernel.Frame
import proofs.«108557_j65481071408018_2_alg».proof.Proof.Gen.KernelIdeal
import proofs.«108557_j65481071408018_2_alg».proof.Proof.Gen.KernelIdeal.Frame
import proofs.«108557_j65481071408018_2_alg».proof.Proof.Gen.ReferenceIdeal
import proofs.«108557_j65481071408018_2_alg».proof.Proof.Gen.ReferenceIdeal.Run
import proofs.«108557_j65481071408018_2_alg».proof.Proof.Gen.ReferenceIdeal.Read
import proofs.«108557_j65481071408018_2_alg».proof.Proof.Gen.Pre_finite_inputs
import proofs.«108557_j65481071408018_2_alg».proof.Proof.ArrayValue
import proofs.«108557_j65481071408018_2_alg».proof.Proof.RefValue
import proofs.«108557_j65481071408018_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories agreeing on a real argument both programs end with the result function of that argument. -/
theorem algebraic : Cert.algebraic_KernelIdeal_ReferenceIdeal := by
  intro m ρ m' ρ' hpre hagree
  refine ⟨fun c => Cert.Overlap.result
      (m ((c.tc : Thread Cert.KernelIdeal.nD Cert.KernelIdeal.τ).loc Cert.KernelIdeal.main_arg0)),
    Cert.KernelIdeal.ArrayValue.run m ρ (fun c idx => Cert.Finite.real_of_pre _ (hpre c) idx), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v122_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
